-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S128x4 : Shape := ⟨2, ![128, 4]⟩
abbrev S64x64 : Shape := ⟨2, ![64, 64]⟩
abbrev S64 : Shape := ⟨1, ![64]⟩
abbrev S68x32 : Shape := ⟨2, ![68, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S68x32 : S_.BroadcastsInDim S68x32 (![] : Fin 0 → Fin S68x32.rank)
  reducesTo_S68x32_S_d0_1 : S68x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_arg27 : FVec F S32x2 .f32) (main_arg28 : FVec F S2 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x2 .f32 := Host.absf main_arg27
  let main_cst_48 : FVec F S_ .f32 := constant S_ .f32 0x7F800000#32
  let main_v125 : FVec F S32x2 .f32 := broadcastInDim S32x2 ![] bcast_S_S32x2 main_cst_48
  let main_v126 : IVec S32x2 1 := cmpf .olt main_v124 main_v125
  let main_c_49 : IVec S_ 1 := constantI S_ 1 1#1
  let main_v127 : IVec S_ 1 := (fun x v => Host.reduce IntOp.andi x v reducesTo_S32x2_S_d0_1 h_S_) main_v126 main_c_49
  let main_v128 : IVec S_ 1 := andi main_v123 main_v127
  let main_v129 : FVec F S2 .f32 := Host.absf main_arg28
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  main_v133

def fn_part6 {F : FTy → Type} [FloatOps F] (main_arg23 : FVec F S64 .f32) (main_arg24 : FVec F S64 .f32) (main_arg25 : FVec F S68x32 .f32) (main_arg26 : FVec F S32 .f32) (main_arg27 : FVec F S32x2 .f32) (main_arg28 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S68x32 .f32 := Host.absf main_arg25
  let main_cst_44 : FVec F S_ .f32 := constant S_ .f32 0x7F800000#32
  let main_v115 : FVec F S68x32 .f32 := broadcastInDim S68x32 ![] bcast_S_S68x32 main_cst_44
  let main_v116 : IVec S68x32 1 := cmpf .olt main_v114 main_v115
  let main_c_45 : IVec S_ 1 := constantI S_ 1 1#1
  let main_v117 : IVec S_ 1 := (fun x v => Host.reduce IntOp.andi x v reducesTo_S68x32_S_d0_1 h_S_) main_v116 main_c_45
  let main_v118 : IVec S_ 1 := andi main_v113 main_v117
  let main_v119 : FVec F S32 .f32 := Host.absf main_arg26
  fn_part7 (F := F) main_arg27 main_arg28 main_v118 main_v119

def fn_part5 {F : FTy → Type} [FloatOps F] (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg20
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S64x64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x64 .f32) (main_arg1 : IVec S2x1250000 32) (main_arg2 : IVec S100000 32) (main_arg3 : FVec F S128x4 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S68x32 .f32) (main_arg26 : FVec F S32 .f32) (main_arg27 : FVec F S32x2 .f32) (main_arg28 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x4 .f32 := Host.absf main_arg3
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S128x4 : Shape := ⟨2, ![128, 4]⟩
abbrev S64x64 : Shape := ⟨2, ![64, 64]⟩
abbrev S64 : Shape := ⟨1, ![64]⟩
abbrev S68x32 : Shape := ⟨2, ![68, 32]⟩
abbrev S32 : Shape := ⟨1, ![32]⟩
abbrev S32x2 : Shape := ⟨2, ![32, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S10000x64 : Shape := ⟨2, ![10000, 64]⟩
abbrev S128x64 : Shape := ⟨2, ![128, 64]⟩
abbrev S128 : Shape := ⟨1, ![128]⟩
abbrev S128x1 : Shape := ⟨2, ![128, 1]⟩
abbrev S128x68 : Shape := ⟨2, ![128, 68]⟩
abbrev S1x32 : Shape := ⟨2, ![1, 32]⟩
abbrev S1x2 : Shape := ⟨2, ![1, 2]⟩
abbrev S128x2 : Shape := ⟨2, ![128, 2]⟩
abbrev S128x32 : Shape := ⟨2, ![128, 32]⟩

abbrev nBuf : Space → Nat
  | .hbm => 146
  | .vmem => 45
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S128x4, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S64, .f32⟩
  | 18 => ⟨S64x64, .f32⟩
  | 19 => ⟨S64, .f32⟩
  | 20 => ⟨S64x64, .f32⟩
  | 21 => ⟨S64, .f32⟩
  | 22 => ⟨S64, .f32⟩
  | 23 => ⟨S64, .f32⟩
  | 24 => ⟨S64, .f32⟩
  | 25 => ⟨S68x32, .f32⟩
  | 26 => ⟨S32, .f32⟩
  | 27 => ⟨S32x2, .f32⟩
  | 28 => ⟨S2, .f32⟩
  | 29 => ⟨S1x1250000, .i32⟩
  | 30 => ⟨S1250000, .i32⟩
  | 31 => ⟨S1x1250000, .i32⟩
  | 32 => ⟨S1250000, .i32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1250000x64, .f32⟩
  | 42 => ⟨S_, .f32⟩
  | 43 => ⟨S100000x64, .f32⟩
  | 44 => ⟨S1250000x1, .i32⟩
  | 45 => ⟨S100000x64, .f32⟩
  | 46 => ⟨S_, .f32⟩
  | 47 => ⟨S1250000, .f32⟩
  | 48 => ⟨S_, .f32⟩
  | 49 => ⟨S100000, .f32⟩
  | 50 => ⟨S1250000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x64, .f32⟩
  | 57 => ⟨S100000x64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S100000x64, .f32⟩
  | 64 => ⟨S_, .i32⟩
  | 65 => ⟨S1250000, .i32⟩
  | 66 => ⟨S1250000, .i1⟩
  | 67 => ⟨S_, .i32⟩
  | 68 => ⟨S1250000, .i32⟩
  | 69 => ⟨S1250000, .i32⟩
  | 70 => ⟨S1250000, .i32⟩
  | 71 => ⟨S1250000x1, .i32⟩
  | 72 => ⟨S1250000x64, .f32⟩
  | 73 => ⟨S_, .f32⟩
  | 74 => ⟨S100000x64, .f32⟩
  | 75 => ⟨S1250000x1, .i32⟩
  | 76 => ⟨S100000x64, .f32⟩
  | 77 => ⟨S_, .f32⟩
  | 78 => ⟨S1250000, .f32⟩
  | 79 => ⟨S_, .f32⟩
  | 80 => ⟨S100000, .f32⟩
  | 81 => ⟨S1250000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x64, .f32⟩
  | 88 => ⟨S100000x64, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S100000x64, .f32⟩
  | 95 => ⟨S_, .i32⟩
  | 96 => ⟨S1250000, .i32⟩
  | 97 => ⟨S1250000, .i1⟩
  | 98 => ⟨S_, .i32⟩
  | 99 => ⟨S1250000, .i32⟩
  | 100 => ⟨S1250000, .i32⟩
  | 101 => ⟨S1250000, .i32⟩
  | 102 => ⟨S1250000x1, .i32⟩
  | 103 => ⟨S1250000x64, .f32⟩
  | 104 => ⟨S_, .f32⟩
  | 105 => ⟨S100000x64, .f32⟩
  | 106 => ⟨S1250000x1, .i32⟩
  | 107 => ⟨S100000x64, .f32⟩
  | 108 => ⟨S_, .f32⟩
  | 109 => ⟨S1250000, .f32⟩
  | 110 => ⟨S_, .f32⟩
  | 111 => ⟨S100000, .f32⟩
  | 112 => ⟨S1250000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x64, .f32⟩
  | 119 => ⟨S100000x64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S100000x64, .f32⟩
  | 126 => ⟨S_, .f32⟩
  | 127 => ⟨S128x64, .f32⟩
  | _ => ⟨S100000x64, .f32⟩

abbrev hbmTy0_1 (i : Nat) : BufTy := match i % 128 with
  | 0 => ⟨S100000x1, .i32⟩
  | 1 => ⟨S128x64, .f32⟩
  | 2 => ⟨S_, .f32⟩
  | 3 => ⟨S100000, .f32⟩
  | 4 => ⟨S_, .f32⟩
  | 5 => ⟨S128, .f32⟩
  | 6 => ⟨S100000x1, .i32⟩
  | 7 => ⟨S128, .f32⟩
  | 8 => ⟨S_, .f32⟩
  | 9 => ⟨S128, .f32⟩
  | 10 => ⟨S128, .f32⟩
  | 11 => ⟨S128x1, .f32⟩
  | 12 => ⟨S128x64, .f32⟩
  | 13 => ⟨S128x64, .f32⟩
  | 14 => ⟨S128x68, .f32⟩
  | 15 => ⟨S1x32, .f32⟩
  | 16 => ⟨S1x2, .f32⟩
  | 17 => ⟨S128x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S128x68, .f32⟩
  | .local _ .vmem, ⟨40, _⟩ => ⟨S68x32, .f32⟩
  | .local _ .vmem, ⟨41, _⟩ => ⟨S1x32, .f32⟩
  | .local _ .vmem, ⟨42, _⟩ => ⟨S32x2, .f32⟩
  | .local _ .vmem, ⟨43, _⟩ => ⟨S1x2, .f32⟩
  | .local _ .vmem, ⟨44, _⟩ => ⟨S128x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_4 : Ref sig .tc := ⟨.hbm, 64, rfl⟩
abbrev main_v29 : Ref sig .tc := ⟨.hbm, 65, rfl⟩
abbrev main_v30 : Ref sig .tc := ⟨.hbm, 66, rfl⟩
abbrev main_c_5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_cst_8 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_10 : Ref sig .tc := ⟨.hbm, 95, rfl⟩
abbrev main_v54 : Ref sig .tc := ⟨.hbm, 96, rfl⟩
abbrev main_v55 : Ref sig .tc := ⟨.hbm, 97, rfl⟩
abbrev main_c_11 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_12 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_13 : Ref sig .tc := ⟨.hbm, 108, rfl⟩
abbrev main_v64 : Ref sig .tc := ⟨.hbm, 109, rfl⟩
abbrev main_cst_14 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_15 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_17 : Ref sig .tc := ⟨.hbm, 130, rfl⟩
abbrev main_v82 : Ref sig .tc := ⟨.hbm, 131, rfl⟩
abbrev main_cst_18 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_19 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x68 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S68x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  concatenates_S128x64_S128x4_S128x68_d1 : Shape.Concatenates [S128x64, S128x4] S128x68 1
  shapeCasts_S32_S1x32 : S32.ShapeCasts S1x32
  shapeCasts_S2_S1x2 : S2.ShapeCasts S1x2
  inb_S128x68_S128x68_0_0 : ∀ a, (![0, 0] : Fin 2 → Nat) a + S128x68.size a ≤ S128x68.size a
  h_S128x68 : 0 < S128x68.numel
  shapeCasts_S128x68_S128x68 : S128x68.ShapeCasts S128x68
  inb_S68x32_S68x32_0_0 : ∀ a, (![0, 0] : Fin 2 → Nat) a + S68x32.size a ≤ S68x32.size a
  h_S68x32 : 0 < S68x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x68_S68x32_S128x32_1_0_0_1_n_n_wf : DotDims.WF S128x68 S68x32 S128x32 [1] [0] [0] [1] [] []
  dot_S128x32_S32x2_S128x2_1_0_0_1_n_n_wf : DotDims.WF S128x32 S32x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S100000x64.size a
  hwx0_9 : ∀ i : grid0.Coords, EltTy.bits .f32 = 32 ∨ (Rect.block (s := S100000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x64.size a ≤ S100000x64.size a
  hwx2_9 : ∀ i : grid2.Coords, EltTy.bits .f32 = 32 ∨ (Rect.block (s := S100000x64) S10000x64.size (cc2_transform_9 i) (hinb2_9 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x68.size a ≤ S128x68.size a
  hwx3_0 : ∀ i : grid3.Coords, EltTy.bits .f32 = 32 ∨ (Rect.block (s := S128x68) S128x68.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S68x32.size a ≤ S68x32.size a
  hwx3_1 : ∀ i : grid3.Coords, EltTy.bits .f32 = 32 ∨ (Rect.block (s := S68x32) S68x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x2.size a ≤ S32x2.size a
  hwx3_3 : ∀ i : grid3.Coords, EltTy.bits .f32 = 32 ∨ (Rect.block (s := S32x2) S32x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x68_S68x32_S128x32_1_0_0_1_n_n : DotDims S128x68 S68x32 S128x32 where
  lhsContracting := [1]
  rhsContracting := [0]
  lhsNonContracting := [0]
  rhsNonContracting := [1]
  lhsBatch := []
  rhsBatch := []
  wf := dot_S128x68_S68x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v72) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg20) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v77) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v78) S10000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v91) S128x68.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg25) S68x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg27) S32x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S128x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S128x4 : Shape := ⟨2, ![128, 4]⟩
abbrev S64x64 : Shape := ⟨2, ![64, 64]⟩
abbrev S64 : Shape := ⟨1, ![64]⟩
abbrev S68x32 : Shape := ⟨2, ![68, 32]⟩
abbrev S32 : Shape := ⟨1, ![32]⟩
abbrev S32x2 : Shape := ⟨2, ![32, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x68 : Shape := ⟨2, ![128, 68]⟩
abbrev S128x32 : Shape := ⟨2, ![128, 32]⟩
abbrev S1x32 : Shape := ⟨2, ![1, 32]⟩
abbrev S128x2 : Shape := ⟨2, ![128, 2]⟩
abbrev S1x2 : Shape := ⟨2, ![1, 2]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S128x4, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S64, .f32⟩
  | 18 => ⟨S64x64, .f32⟩
  | 19 => ⟨S64, .f32⟩
  | 20 => ⟨S64x64, .f32⟩
  | 21 => ⟨S64, .f32⟩
  | 22 => ⟨S64, .f32⟩
  | 23 => ⟨S64, .f32⟩
  | 24 => ⟨S64, .f32⟩
  | 25 => ⟨S68x32, .f32⟩
  | 26 => ⟨S32, .f32⟩
  | 27 => ⟨S32x2, .f32⟩
  | 28 => ⟨S2, .f32⟩
  | 29 => ⟨S1x1250000, .i32⟩
  | 30 => ⟨S1250000, .i32⟩
  | 31 => ⟨S1x1250000, .i32⟩
  | 32 => ⟨S1250000, .i32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1250000x64, .f32⟩
  | 42 => ⟨S_, .f32⟩
  | 43 => ⟨S100000x64, .f32⟩
  | 44 => ⟨S1250000x1, .i32⟩
  | 45 => ⟨S100000x64, .f32⟩
  | 46 => ⟨S_, .f32⟩
  | 47 => ⟨S1250000, .f32⟩
  | 48 => ⟨S_, .f32⟩
  | 49 => ⟨S100000, .f32⟩
  | 50 => ⟨S1250000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .i32⟩
  | 82 => ⟨S1250000, .i32⟩
  | 83 => ⟨S1250000, .i1⟩
  | 84 => ⟨S_, .i32⟩
  | 85 => ⟨S1250000, .i32⟩
  | 86 => ⟨S1250000, .i32⟩
  | 87 => ⟨S1250000, .i32⟩
  | 88 => ⟨S1250000x1, .i32⟩
  | 89 => ⟨S1250000x64, .f32⟩
  | 90 => ⟨S_, .f32⟩
  | 91 => ⟨S100000x64, .f32⟩
  | 92 => ⟨S1250000x1, .i32⟩
  | 93 => ⟨S100000x64, .f32⟩
  | 94 => ⟨S_, .f32⟩
  | 95 => ⟨S1250000, .f32⟩
  | 96 => ⟨S_, .f32⟩
  | 97 => ⟨S100000, .f32⟩
  | 98 => ⟨S1250000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S64, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S_, .i32⟩
  | 2 => ⟨S1250000, .i32⟩
  | 3 => ⟨S1250000, .i1⟩
  | 4 => ⟨S_, .i32⟩
  | 5 => ⟨S1250000, .i32⟩
  | 6 => ⟨S1250000, .i32⟩
  | 7 => ⟨S1250000, .i32⟩
  | 8 => ⟨S1250000x1, .i32⟩
  | 9 => ⟨S1250000x64, .f32⟩
  | 10 => ⟨S_, .f32⟩
  | 11 => ⟨S100000x64, .f32⟩
  | 12 => ⟨S1250000x1, .i32⟩
  | 13 => ⟨S100000x64, .f32⟩
  | 14 => ⟨S_, .f32⟩
  | 15 => ⟨S1250000, .f32⟩
  | 16 => ⟨S_, .f32⟩
  | 17 => ⟨S100000, .f32⟩
  | 18 => ⟨S1250000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S64, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .f32⟩
  | 50 => ⟨S128x64, .f32⟩
  | 51 => ⟨S100000x1, .i32⟩
  | 52 => ⟨S128x64, .f32⟩
  | 53 => ⟨S_, .f32⟩
  | 54 => ⟨S100000, .f32⟩
  | 55 => ⟨S_, .f32⟩
  | 56 => ⟨S128, .f32⟩
  | 57 => ⟨S100000x1, .i32⟩
  | 58 => ⟨S128, .f32⟩
  | 59 => ⟨S_, .f32⟩
  | 60 => ⟨S128, .f32⟩
  | 61 => ⟨S128, .f32⟩
  | 62 => ⟨S128x1, .f32⟩
  | 63 => ⟨S128x64, .f32⟩
  | 64 => ⟨S128x64, .f32⟩
  | 65 => ⟨S128x68, .f32⟩
  | 66 => ⟨S128x32, .f32⟩
  | 67 => ⟨S1x32, .f32⟩
  | 68 => ⟨S128x32, .f32⟩
  | 69 => ⟨S128x32, .f32⟩
  | 70 => ⟨S_, .f32⟩
  | 71 => ⟨S128x32, .f32⟩
  | 72 => ⟨S128x32, .f32⟩
  | 73 => ⟨S128x2, .f32⟩
  | 74 => ⟨S1x2, .f32⟩
  | 75 => ⟨S128x2, .f32⟩
  | 76 => ⟨S128x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call0_cst : Ref sig .tc := ⟨.hbm, 78, rfl⟩
abbrev main_call0_v0 : Ref sig .tc := ⟨.hbm, 79, rfl⟩
abbrev main_v42 : Ref sig .tc := ⟨.hbm, 80, rfl⟩
abbrev main_c_5 : Ref sig .tc := ⟨.hbm, 81, rfl⟩
abbrev main_v43 : Ref sig .tc := ⟨.hbm, 82, rfl⟩
abbrev main_v44 : Ref sig .tc := ⟨.hbm, 83, rfl⟩
abbrev main_c_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_7 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_8 : Ref sig .tc := ⟨.hbm, 94, rfl⟩
abbrev main_v53 : Ref sig .tc := ⟨.hbm, 95, rfl⟩
abbrev main_cst_9 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_11 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call1_cst : Ref sig .tc := ⟨.hbm, 126, rfl⟩
abbrev main_call1_v0 : Ref sig .tc := ⟨.hbm, 127, rfl⟩
abbrev main_v81 : Ref sig .tc := ⟨.hbm, 128, rfl⟩
abbrev main_c_12 : Ref sig .tc := ⟨.hbm, 129, rfl⟩
abbrev main_v82 : Ref sig .tc := ⟨.hbm, 130, rfl⟩
abbrev main_v83 : Ref sig .tc := ⟨.hbm, 131, rfl⟩
abbrev main_c_13 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_14 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_15 : Ref sig .tc := ⟨.hbm, 142, rfl⟩
abbrev main_v92 : Ref sig .tc := ⟨.hbm, 143, rfl⟩
abbrev main_cst_16 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_17 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_18 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call2_cst : Ref sig .tc := ⟨.hbm, 174, rfl⟩
abbrev main_call2_v0 : Ref sig .tc := ⟨.hbm, 175, rfl⟩
abbrev main_v120 : Ref sig .tc := ⟨.hbm, 176, rfl⟩
abbrev main_cst_19 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_20 : Ref sig .tc := ⟨.hbm, 181, rfl⟩
abbrev main_v124 : Ref sig .tc := ⟨.hbm, 182, rfl⟩
abbrev main_cst_21 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_22 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call3_cst : Ref sig .tc := ⟨.hbm, 198, rfl⟩
abbrev main_call3_v0 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  concatenates_S128x64_S128x4_S128x68_d1 : Shape.Concatenates [S128x64, S128x4] S128x68 1
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x68_S68x32_S128x32_1_0_0_1_n_n_wf : DotDims.WF S128x68 S68x32 S128x32 [1] [0] [0] [1] [] []
  dot_S128x32_S32x2_S128x2_1_0_0_1_n_n_wf : DotDims.WF S128x32 S32x2 S128x2 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x68_S68x32_S128x32_1_0_0_1_n_n : DotDims S128x68 S68x32 S128x32 where
  lhsContracting := [1]
  rhsContracting := [0]
  lhsNonContracting := [0]
  rhsNonContracting := [1]
  lhsBatch := []
  rhsBatch := []
  wf := dot_S128x68_S68x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

class Facts : Prop extends Facts₀ where

variable [Facts]
-- ==== Proof.KernelRun.lean ====
/-
  The idealized kernel's run, with the result named.

  @main is four pipelined regions among four stretches of host operations. The contents of the TensorCore's buffers
  at each of the eight segment boundaries are a fold from the launch memory: a stretch applies its host operations,
  a region leaves its windows' arrays at what the write-backs of its grid points leave and every other buffer as it
  found it. The run below says that every execution terminates, nothing faulting, in a state whose every unscoped
  buffer holds the LAST boundary's contents; the result array (the classifier region's output window) is one of
  those buffers, and so are the argument arrays, which the fold carries back to the launch memory unchanged.
-/
import proofs.«174914_j24137716203811_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final state every unscoped buffer of
    every core holds the contents of the last segment boundary (`Gen.W8`). -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result array after the run is the last boundary's contents of the classifier region's output buffer. -/
theorem result_of_buffers (r : PUnit × MemSt nD τ sig (Elt F))
    (h : ∀ c : Dev nD, ∀ b ∈ Pipeline.ucRefs τ sig, r.2.mem (((c : Thread nD τ)).1, b) = W8 m ρ c b) (c : Dev nD) :
    r.2.mem ((c.tc : Thread nD τ).loc main_v94) = W8 m ρ c (Proc.devRef .tc main_v94) :=
  h c _ (mem_uc main_v94 (by decide))

/-- The argument arrays after the run are the launch memory's: the fold carries each of them back unchanged. -/
theorem args_of_buffers (r : PUnit × MemSt nD τ sig (Elt F))
    (h : ∀ c : Dev nD, ∀ b ∈ Pipeline.ucRefs τ sig, r.2.mem (((c : Thread nD τ)).1, b) = W8 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28) :=
  ⟨(h c _ (mem_uc main_arg0 (by decide))).trans (W8_main_arg0 m ρ c),
   (h c _ (mem_uc main_arg1 (by decide))).trans (W8_main_arg1 m ρ c),
   (h c _ (mem_uc main_arg2 (by decide))).trans (W8_main_arg2 m ρ c),
   (h c _ (mem_uc main_arg3 (by decide))).trans (W8_main_arg3 m ρ c),
   (h c _ (mem_uc main_arg4 (by decide))).trans (W8_main_arg4 m ρ c),
   (h c _ (mem_uc main_arg5 (by decide))).trans (W8_main_arg5 m ρ c),
   (h c _ (mem_uc main_arg6 (by decide))).trans (W8_main_arg6 m ρ c),
   (h c _ (mem_uc main_arg7 (by decide))).trans (W8_main_arg7 m ρ c),
   (h c _ (mem_uc main_arg8 (by decide))).trans (W8_main_arg8 m ρ c),
   (h c _ (mem_uc main_arg9 (by decide))).trans (W8_main_arg9 m ρ c),
   (h c _ (mem_uc main_arg10 (by decide))).trans (W8_main_arg10 m ρ c),
   (h c _ (mem_uc main_arg11 (by decide))).trans (W8_main_arg11 m ρ c),
   (h c _ (mem_uc main_arg12 (by decide))).trans (W8_main_arg12 m ρ c),
   (h c _ (mem_uc main_arg13 (by decide))).trans (W8_main_arg13 m ρ c),
   (h c _ (mem_uc main_arg14 (by decide))).trans (W8_main_arg14 m ρ c),
   (h c _ (mem_uc main_arg15 (by decide))).trans (W8_main_arg15 m ρ c),
   (h c _ (mem_uc main_arg16 (by decide))).trans (W8_main_arg16 m ρ c),
   (h c _ (mem_uc main_arg17 (by decide))).trans (W8_main_arg17 m ρ c),
   (h c _ (mem_uc main_arg18 (by decide))).trans (W8_main_arg18 m ρ c),
   (h c _ (mem_uc main_arg19 (by decide))).trans (W8_main_arg19 m ρ c),
   (h c _ (mem_uc main_arg20 (by decide))).trans (W8_main_arg20 m ρ c),
   (h c _ (mem_uc main_arg21 (by decide))).trans (W8_main_arg21 m ρ c),
   (h c _ (mem_uc main_arg22 (by decide))).trans (W8_main_arg22 m ρ c),
   (h c _ (mem_uc main_arg23 (by decide))).trans (W8_main_arg23 m ρ c),
   (h c _ (mem_uc main_arg24 (by decide))).trans (W8_main_arg24 m ρ c),
   (h c _ (mem_uc main_arg25 (by decide))).trans (W8_main_arg25 m ρ c),
   (h c _ (mem_uc main_arg26 (by decide))).trans (W8_main_arg26 m ρ c),
   (h c _ (mem_uc main_arg27 (by decide))).trans (W8_main_arg27 m ρ c),
   (h c _ (mem_uc main_arg28 (by decide))).trans (W8_main_arg28 m ρ c)⟩

end Cert.KernelIdeal.RunValue

end
-- ==== Proof.Spec.lean ====
/-
  The mathematics both programs compute, on the extended reals.

  The network is three graph-convolution layers over 100000 nodes with 64 features, a mean pool over 128 graphs, and a
  two-layer classifier. A layer first averages each node's in-neighbours (a gather along the edges followed by a
  scatter-add and a division by the in-degree: irregular, and carried here as an OPAQUE function of the features and
  the edge list, since both programs apply the same one), then transforms every node row by row:

      out[p, q] = max( ((Σₖ a[p,k]·Wl[k,q] + bl[q]) + Σₖ h[p,k]·Wr[k,q] − rm[q]) · (g[q] · rsqrt(rv[q] + ε)) + be[q], 0 )

  with `a` the averaged neighbours and `h` the node's own features: two 64×64 matrix products, a bias, a batch
  normalisation by running statistics, and a rectifier. Row `p` of the result depends on row `p` of `a` and of `h`
  only, which is why a kernel may compute it in blocks of rows. The classifier is, per graph row,

      out[q] = Σⱼ max(Σₖ e[k]·W1[k,j] + b1[j], 0) · W2[j,q] + b2[q].

  The only algebra that the two programs' spellings differ by is the order in which the bias and the second product
  are added to the first: `(x + y) + z = (x + z) + y`, which holds on the extended reals with no finiteness assumption
  (addition there is commutative and associative).
-/
import Idealize.ShloMosaic.PureOps.Ideal
import Idealize.ShloMosaic.Lib.ValueIdx

noncomputable section

namespace Cert.GraphNet

open Idealize.ShloMosaic Idealize.ShloMosaic.ValueIdx

/-- The two float literals of the programs, as the extended reals their words denote (never evaluated: the same
    word stands on both sides). -/
abbrev epsBN : EReal := Ideal.ofBits .f32 0x3727C5AC#32
abbrev zeroF : EReal := Ideal.ofBits .f32 0x00000000#32

/-- One node's dense transform: entry `q` of the layer's output row from the node's averaged-neighbour row `a`, its own
    feature row `h`, the two weight matrices, the bias and the four normalisation vectors. -/
def denseRow (a h : Fin 64 → EReal) (Wl Wr : Fin 64 → Fin 64 → EReal) (bl g be rm rv : Fin 64 → EReal)
    (q : Fin 64) : EReal :=
  max (((((∑ k : Fin 64, a k * Wl k q) + bl q) + ∑ k : Fin 64, h k * Wr k q) - rm q)
        * (g q * Ideal.rsqrt (rv q + epsBN)) + be q) zeroF

/-- One graph's classifier: entry `q` of the two logits from the graph's 68-entry embedding row. -/
def clfRow (e : Fin 68 → EReal) (W1 : Fin 68 → Fin 32 → EReal) (b1 : Fin 32 → EReal) (W2 : Fin 32 → Fin 2 → EReal)
    (b2 : Fin 2 → EReal) (q : Fin 2) : EReal :=
  (∑ j : Fin 32, max ((∑ k : Fin 68, e k * W1 k j) + b1 j) zeroF * W2 j q) + b2 q

/-- The dense transform of a whole feature array, index by index: row `i 0`, column `i 1`. -/
def denseArr (a h : (⟨2, ![100000, 64]⟩ : Shape).Idx → EReal) (Wl Wr : (⟨2, ![64, 64]⟩ : Shape).Idx → EReal)
    (bl g be rm rv : (⟨1, ![64]⟩ : Shape).Idx → EReal) : (⟨2, ![100000, 64]⟩ : Shape).Idx → EReal :=
  fun i => denseRow (fun k => a (ix2 (i 0) k)) (fun k => h (ix2 (i 0) k)) (fun k q => Wl (ix2 k q)) (fun k q => Wr (ix2 k q))
    (fun q => bl (ix1 q)) (fun q => g (ix1 q)) (fun q => be (ix1 q)) (fun q => rm (ix1 q)) (fun q => rv (ix1 q)) (i 1)

/-- The dense transform at row `p`, column `q`, spelt out. -/
theorem denseArr_ix2 (a h : (⟨2, ![100000, 64]⟩ : Shape).Idx → EReal) (Wl Wr : (⟨2, ![64, 64]⟩ : Shape).Idx → EReal)
    (bl g be rm rv : (⟨1, ![64]⟩ : Shape).Idx → EReal) (p : Fin 100000) (q : Fin 64) :
    denseArr a h Wl Wr bl g be rm rv (ix2 p q)
      = denseRow (fun k => a (ix2 p k)) (fun k => h (ix2 p k)) (fun k q => Wl (ix2 k q)) (fun k q => Wr (ix2 k q))
          (fun q => bl (ix1 q)) (fun q => g (ix1 q)) (fun q => be (ix1 q)) (fun q => rm (ix1 q)) (fun q => rv (ix1 q)) q := rfl

/-- The classifier of a whole embedding array, index by index. -/
def clfArr (e : (⟨2, ![128, 68]⟩ : Shape).Idx → EReal) (W1 : (⟨2, ![68, 32]⟩ : Shape).Idx → EReal)
    (b1 : (⟨1, ![32]⟩ : Shape).Idx → EReal) (W2 : (⟨2, ![32, 2]⟩ : Shape).Idx → EReal)
    (b2 : (⟨1, ![2]⟩ : Shape).Idx → EReal) : (⟨2, ![128, 2]⟩ : Shape).Idx → EReal :=
  fun i => clfRow (fun k => e (ix2 (i 0) k)) (fun k j => W1 (ix2 k j)) (fun j => b1 (ix1 j)) (fun j q => W2 (ix2 j q))
    (fun q => b2 (ix1 q)) (i 1)

/-- The classifier at graph `p`, logit `q`, spelt out. -/
theorem clfArr_ix2 (e : (⟨2, ![128, 68]⟩ : Shape).Idx → EReal) (W1 : (⟨2, ![68, 32]⟩ : Shape).Idx → EReal)
    (b1 : (⟨1, ![32]⟩ : Shape).Idx → EReal) (W2 : (⟨2, ![32, 2]⟩ : Shape).Idx → EReal)
    (b2 : (⟨1, ![2]⟩ : Shape).Idx → EReal) (p : Fin 128) (q : Fin 2) :
    clfArr e W1 b1 W2 b2 (ix2 p q)
      = clfRow (fun k => e (ix2 p k)) (fun k j => W1 (ix2 k j)) (fun j => b1 (ix1 j)) (fun j q => W2 (ix2 j q))
          (fun q => b2 (ix1 q)) q := rfl

/-- A 1×n array's one row as a vector: what a parameter vector reshaped to one row holds. -/
def rowOf {n : Nat} (v : (⟨2, ![1, n]⟩ : Shape).Idx → EReal) : (⟨1, ![n]⟩ : Shape).Idx → EReal :=
  fun j => v (ix2 (0 : Fin 1) (j 0))

theorem rowOf_ix1 {n : Nat} (v : (⟨2, ![1, n]⟩ : Shape).Idx → EReal) (q : Fin n) : rowOf v (ix1 q) = v (ix2 (0 : Fin 1) q) := rfl

/-- The arrays' types: node features, a layer's weights, a 64-vector, the pooled embedding with the graph attributes
    appended, the classifier's parameters, the logits. -/
abbrev Feat := (⟨2, ![100000, 64]⟩ : Shape).Idx → EReal
abbrev Mat64 := (⟨2, ![64, 64]⟩ : Shape).Idx → EReal
abbrev Vec64 := (⟨1, ![64]⟩ : Shape).Idx → EReal
abbrev Attr := (⟨2, ![128, 4]⟩ : Shape).Idx → EReal
abbrev Emb := (⟨2, ![128, 68]⟩ : Shape).Idx → EReal
abbrev Logits := (⟨2, ![128, 2]⟩ : Shape).Idx → EReal

/-- THE NETWORK as one function of its 29 arguments, over the two irregular host chains taken as parameters: `agg`
    (a node's in-neighbours averaged, from the features and the edge list) and `pool` (the per-graph mean of the node
    features with the graph attributes appended, from the features, the node-to-graph map and the attributes).
    Three layers `h ↦ denseArr (agg h edges) h …`, the pool, the classifier. -/
def net {E B : Type} (agg : Feat → E → Feat) (pool : Feat → B → Attr → Emb)
    (x0 : Feat) (x1 : E) (x2 : B) (x3 : Attr)
    (x4 : Mat64) (x5 : Vec64) (x6 : Mat64) (x7 x8 x9 x10 : Vec64)
    (x11 : Mat64) (x12 : Vec64) (x13 : Mat64) (x14 x15 x16 x17 : Vec64)
    (x18 : Mat64) (x19 : Vec64) (x20 : Mat64) (x21 x22 x23 x24 : Vec64)
    (x25 : (⟨2, ![68, 32]⟩ : Shape).Idx → EReal) (x26 : (⟨1, ![32]⟩ : Shape).Idx → EReal)
    (x27 : (⟨2, ![32, 2]⟩ : Shape).Idx → EReal) (x28 : (⟨1, ![2]⟩ : Shape).Idx → EReal) : Logits :=
  let h1 : Feat := denseArr (agg x0 x1) x0 x4 x6 x5 x7 x8 x9 x10
  let h2 : Feat := denseArr (agg h1 x1) h1 x11 x13 x12 x14 x15 x16 x17
  let h3 : Feat := denseArr (agg h2 x1) h2 x18 x20 x19 x21 x22 x23 x24
  clfArr (pool h3 x2 x3) x25 x26 x27 x28

/-- The one law between the two spellings of a layer: the bias and the second product may be added in either order. -/
theorem add_bias_comm (x y z : EReal) : (x + y) + z = (x + z) + y := add_right_comm x y z

end Cert.GraphNet

end
-- ==== Proof.DensePay.lean ====
/-
  The dense kernel's body, read at an entry.

  At a grid point the body loads a block of 10000 node rows of the averaged neighbours and of the node features, the two
  64×64 weight matrices and five 1×64 parameter rows, and computes one 10000×64 block. Read at row `r`, column `q`, the
  two matrix products into a zero accumulator are the sums over the 64 shared features (the narrowing of the operands
  to a shorter float format is the identity on extended reals), every 1×64 row is broadcast down the rows, and what is
  left is the layer's row transform of the specification, with the bias and the second product added in the other
  order.
-/
import proofs.«174914_j24137716203811_1_alg».proof.Proof.Gen.KernelIdeal.Skeleton
import proofs.«174914_j24137716203811_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DensePay

open Cert.KernelIdeal Cert.KernelIdeal.Gen Cert.GraphNet Idealize.ShloMosaic Idealize.ShloMosaic.ValueIdx

/-- The product's operand indices at an output index and a contraction index, coordinate by coordinate: the left
    operand is read at (the output's row, the contracted coordinate), the right at (the contracted coordinate, the
    output's column). -/
theorem lhs_coord0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_coord1 (i : S10000x64.Idx) (c : dot_S10000x64_S64x64_S10000x64_1_0_0_1_n_n.contr.Idx) : (dot_S10000x64_S64x64_S10000x64_1_0_0_1_n_n.lhsIdx i c 1).val = (c ⟨0, by decide⟩).val :=
  dot_S10000x64_S64x64_S10000x64_1_0_0_1_n_n.lhsIdx_val_of_single rfl i c
theorem rhs_coord0 (i : S10000x64.Idx) (c : dot_S10000x64_S64x64_S10000x64_1_0_0_1_n_n.contr.Idx) : (dot_S10000x64_S64x64_S10000x64_1_0_0_1_n_n.rhsIdx i c 0).val = (c ⟨0, by decide⟩).val :=
  dot_S10000x64_S64x64_S10000x64_1_0_0_1_n_n.rhsIdx_val_of_single rfl i c
theorem rhs_coord1 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix unit's product of a 10000×64 block with a 64×64 matrix into a zero accumulator, at row `r` and column
    `q`: the sum over the contracted axis of the block's row `r` against the matrix's column `q`. -/
theorem block_matmul_apply (x : FVec Ideal S10000x64 .bf16) (w : FVec Ideal S64x64 .bf16) (r : Fin 10000) (q : Fin 64) :
    matmul dot_S10000x64_S64x64_S10000x64_1_0_0_1_n_n none x w (constant (F := Ideal) S10000x64 .f32 0x00000000#32) (ix2 r q)
      = ∑ k : Fin 64, x (ix2 r k) * w (ix2 k q) := by
  show FloatOps.matmul dot_S10000x64_S64x64_S10000x64_1_0_0_1_n_n none x w (constant (F := Ideal) S10000x64 .f32 0x00000000#32) (ix2 r q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k := funext fun a => Fin.ext (by
    match a with
    | ⟨0, _⟩ => exact lhs_coord0 _ _
    | ⟨1, _⟩ => exact (lhs_coord1 _ _).trans hk)
  have er : dot_S10000x64_S64x64_S10000x64_1_0_0_1_n_n.rhsIdx (ix2 r q) ((contrEquiv1 dot_S10000x64_S64x64_S10000x64_1_0_0_1_n_n 64 rfl rfl).symm k) = ix2 k q := funext fun a => Fin.ext (by
    match a with
    | ⟨0, _⟩ => exact (rhs_coord0 _ _).trans hk
    | ⟨1, _⟩ => exact rhs_coord1 _ _)
  rw [el, er]

/-- A 1×64 parameter row broadcast over the block's 10000 rows reads, at (r, q), the row's entry `q`. -/
theorem row_bcast_apply (v : FVec Ideal S1x64 .f32) (r : Fin 10000) (q : Fin 64) :
    broadcastTo S10000x64 v broadcasts_S1x64_S10000x64 (ix2 r q) = v (ix2 (0 : Fin 1) q) :=
  broadcastTo_1b_ab_apply v broadcasts_S1x64_S10000x64 r q

/-- The reciprocal square root of a vector, at an index. -/
theorem rsqrt_apply {s : Shape} {φ : FTy} (x : FVec Ideal s φ) (i : s.Idx) : rsqrt x i = Ideal.rsqrt (x i) := rfl

/-- The first layer's body at (r, q) is the specification's row transform of row `r` of its two blocks. -/
theorem pay0_apply (a h : Vec Ideal S10000x64 .f32) (Wl Wr : Vec Ideal S64x64 .f32) (bl rv rm g be : Vec Ideal S1x64 .f32)
    (r : Fin 10000) (q : Fin 64) :
    k0_pay1 (F := Ideal) a h Wl Wr bl rv rm g be (ix2 r q)
      = denseRow (fun k => a (ix2 r k)) (fun k => h (ix2 r k)) (fun k q => Wl (ix2 k q)) (fun k q => Wr (ix2 k q))
          (fun q => bl (ix2 (0 : Fin 1) q)) (fun q => g (ix2 (0 : Fin 1) q)) (fun q => be (ix2 (0 : Fin 1) q))
          (fun q => rm (ix2 (0 : Fin 1) q)) (fun q => rv (ix2 (0 : Fin 1) q)) q := by
  unfold k0_pay1 denseRow
  simp only [maximumf_apply, addf_apply, mulf_apply, subf_apply, broadcast_apply, row_bcast_apply, block_matmul_apply,
    shapeCast_self, truncf_apply, rsqrt_apply, Ideal.ofBits_def]
  rw [add_right_comm (∑ k : Fin 64, a (ix2 r k) * Wl (ix2 k q))]

/-- The second layer's body at (r, q) is the specification's row transform of row `r` of its two blocks. -/
theorem pay1_apply (a h : Vec Ideal S10000x64 .f32) (Wl Wr : Vec Ideal S64x64 .f32) (bl rv rm g be : Vec Ideal S1x64 .f32)
    (r : Fin 10000) (q : Fin 64) :
    k1_pay1 (F := Ideal) a h Wl Wr bl rv rm g be (ix2 r q)
      = denseRow (fun k => a (ix2 r k)) (fun k => h (ix2 r k)) (fun k q => Wl (ix2 k q)) (fun k q => Wr (ix2 k q))
          (fun q => bl (ix2 (0 : Fin 1) q)) (fun q => g (ix2 (0 : Fin 1) q)) (fun q => be (ix2 (0 : Fin 1) q))
          (fun q => rm (ix2 (0 : Fin 1) q)) (fun q => rv (ix2 (0 : Fin 1) q)) q := by
  unfold k1_pay1 denseRow
  simp only [maximumf_apply, addf_apply, mulf_apply, subf_apply, broadcast_apply, row_bcast_apply, block_matmul_apply,
    shapeCast_self, truncf_apply, rsqrt_apply, Ideal.ofBits_def]
  rw [add_right_comm (∑ k : Fin 64, a (ix2 r k) * Wl (ix2 k q))]

/-- The third layer's body at (r, q) is the specification's row transform of row `r` of its two blocks. -/
theorem pay2_apply (a h : Vec Ideal S10000x64 .f32) (Wl Wr : Vec Ideal S64x64 .f32) (bl rv rm g be : Vec Ideal S1x64 .f32)
    (r : Fin 10000) (q : Fin 64) :
    k2_pay1 (F := Ideal) a h Wl Wr bl rv rm g be (ix2 r q)
      = denseRow (fun k => a (ix2 r k)) (fun k => h (ix2 r k)) (fun k q => Wl (ix2 k q)) (fun k q => Wr (ix2 k q))
          (fun q => bl (ix2 (0 : Fin 1) q)) (fun q => g (ix2 (0 : Fin 1) q)) (fun q => be (ix2 (0 : Fin 1) q))
          (fun q => rm (ix2 (0 : Fin 1) q)) (fun q => rv (ix2 (0 : Fin 1) q)) q := by
  unfold k2_pay1 denseRow
  simp only [maximumf_apply, addf_apply, mulf_apply, subf_apply, broadcast_apply, row_bcast_apply, block_matmul_apply,
    shapeCast_self, truncf_apply, rsqrt_apply, Ideal.ofBits_def]
  rw [add_right_comm (∑ k : Fin 64, a (ix2 r k) * Wl (ix2 k q))]

end Cert.KernelIdeal.DensePay

end
-- ==== Proof.Dense0.lean ====
/-
  The first dense region, from its blocks to its array.

  The region's grid has ten points; point `t` stages rows 10000·t … 10000·t + 9999 of the averaged-neighbour array and
  of the feature array, the whole of the two weight matrices and of the five one-row parameter arrays, runs the body,
  and writes the resulting 10000×64 block back to rows 10000·t … of the output array. Whatever the buffers hold when the
  region is entered (`V`), the output array therefore ends holding the layer's row transform of those contents, index by
  index: what point `t` writes back is block `t` of that one whole-array function (the body's value at an entry is the
  row transform of the staged rows, and a staged row is the array's row at the block's offset), and the ten blocks
  cover the array (row `p` lies in block `p / 10000`).
-/
import proofs.«174914_j24137716203811_1_alg».proof.Proof.Gen.KernelIdeal.Frame
import proofs.«174914_j24137716203811_1_alg».proof.Proof.DensePay
import Idealize.ShloMosaic.Lib.Pipeline.Value

set_option maxRecDepth 16384

noncomputable section

namespace Cert.KernelIdeal.DenseValue0

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the layer's row transform of the arrays the region finds. -/
def layerOut (c : Dev nD) : S100000x64.Idx → EReal :=
  denseArr (V c main_v22) (V c main_arg0) (V c main_arg4) (V c main_arg6) (rowOf (V c main_v23)) (rowOf (V c main_v24))
    (rowOf (V c main_v25)) (rowOf (V c main_v26)) (rowOf (V c main_v27))

/-- The printed index maps, decided over the ten grid points: the two row-blocked inputs move with the output along
    the rows, every other window stays at the origin, and the output's row-block index is the point's number. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 9 ∧ win0_9.index t (1 : Fin 2) = 0 :=
  (by decide +kernel : ∀ t : Fin grid0.N, _)

/-- Every row block is some point's. -/
theorem idx_onto : ∀ (b : Fin 10), ∃ t : Fin cfg0.N, win0_9.index t = ![b.val, 0] :=
  (by decide +kernel : ∀ (b : Fin 10), ∃ t : Fin grid0.N, win0_9.index t = ![b.val, 0])

/-- WHAT POINT `t` WRITES BACK is block `t` of the layer's output function. -/
theorem flushed_eq (c : Dev nD) (t : Fin cfg0.N) :
    (dat0 V c).flushed 9 t = ((cfg0.win 9).blk t).view.read (Elt Ideal) (layerOut V c) := by
  show (cfg0.win 9).cut (grid0.coords t) ((dat0 V c).after 9 t) = _
  rw [after0_9]
  unfold out0_9
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71, e80, e81, e90, e91⟩ := idx_facts t
  funext j
  obtain ⟨r, q, rfl⟩ : ∃ (r : Fin 10000) (q : Fin 64), j = ix2 r q := ⟨j 0, j 1, eq_ix2 j⟩
  have hr : r.val < 10000 := r.isLt
  have hq : q.val < 64 := q.isLt
  have hP : win0_9.index t (0 : Fin 2) * 10000 + r.val < 100000 := by omega
  have hE : ((cfg0.win 9).blk t).view.emb (ix2 r q) = ix2 (⟨win0_9.index t (0 : Fin 2) * 10000 + r.val, hP⟩ : Fin 100000) q :=
    funext fun a => Fin.ext (by
      match a with
      | ⟨0, _⟩ => show win0_9.index t (0 : Fin 2) * 10000 + 1 * r.val = win0_9.index t (0 : Fin 2) * 10000 + r.val; omega
      | ⟨1, _⟩ => show win0_9.index t (1 : Fin 2) * 64 + 1 * q.val = q.val; omega)
  show k0_pay1 (iblk0 V c 0 t) (iblk0 V c 1 t) (iblk0 V c 2 t) (iblk0 V c 4 t) (iblk0 V c 3 t) (iblk0 V c 8 t)
        (iblk0 V c 7 t) (iblk0 V c 5 t) (iblk0 V c 6 t) (ix2 r q) = layerOut V c (((cfg0.win 9).blk t).view.emb (ix2 r q))
  rw [hE]
  unfold layerOut
  rw [denseArr_ix2]
  refine (DensePay.pay0_apply (iblk0 V c 0 t) (iblk0 V c 1 t) (iblk0 V c 2 t) (iblk0 V c 4 t) (iblk0 V c 3 t) (iblk0 V c 8 t)
    (iblk0 V c 7 t) (iblk0 V c 5 t) (iblk0 V c 6 t) r q).trans ?_
  have b0 : (fun k : Fin 64 => iblk0 V c 0 t (ix2 r k)) = fun k => V c main_v22 (ix2 (⟨win0_9.index t (0 : Fin 2) * 10000 + r.val, hP⟩ : Fin 100000) k) :=
    funext fun k => by
      show V c main_v22 (((cfg0.win 0).blk t).view.emb (ix2 r k)) = _
      exact congrArg (V c main_v22) (funext fun a => Fin.ext (by
        match a with
        | ⟨0, _⟩ => show win0_0.index t (0 : Fin 2) * 10000 + 1 * r.val = win0_9.index t (0 : Fin 2) * 10000 + r.val; omega
        | ⟨1, _⟩ => show win0_0.index t (1 : Fin 2) * 64 + 1 * k.val = k.val; omega))
  have b1 : (fun k : Fin 64 => iblk0 V c 1 t (ix2 r k)) = fun k => V c main_arg0 (ix2 (⟨win0_9.index t (0 : Fin 2) * 10000 + r.val, hP⟩ : Fin 100000) k) :=
    funext fun k => by
      show V c main_arg0 (((cfg0.win 1).blk t).view.emb (ix2 r k)) = _
      exact congrArg (V c main_arg0) (funext fun a => Fin.ext (by
        match a with
        | ⟨0, _⟩ => show win0_1.index t (0 : Fin 2) * 10000 + 1 * r.val = win0_9.index t (0 : Fin 2) * 10000 + r.val; omega
        | ⟨1, _⟩ => show win0_1.index t (1 : Fin 2) * 64 + 1 * k.val = k.val; omega))
  have b2 : (fun (k : Fin 64) (q : Fin 64) => iblk0 V c 2 t (ix2 k q)) = fun k q => V c main_arg4 (ix2 k q) :=
    funext fun k => funext fun q => by
      show V c main_arg4 (((cfg0.win 2).blk t).view.emb (ix2 k q)) = _
      exact congrArg (V c main_arg4) (funext fun a => Fin.ext (by
        match a with
        | ⟨0, _⟩ => show win0_2.index t (0 : Fin 2) * 64 + 1 * k.val = k.val; omega
        | ⟨1, _⟩ => show win0_2.index t (1 : Fin 2) * 64 + 1 * q.val = q.val; omega))
  have b4 : (fun (k : Fin 64) (q : Fin 64) => iblk0 V c 4 t (ix2 k q)) = fun k q => V c main_arg6 (ix2 k q) :=
    funext fun k => funext fun q => by
      show V c main_arg6 (((cfg0.win 4).blk t).view.emb (ix2 k q)) = _
      exact congrArg (V c main_arg6) (funext fun a => Fin.ext (by
        match a with
        | ⟨0, _⟩ => show win0_4.index t (0 : Fin 2) * 64 + 1 * k.val = k.val; omega
        | ⟨1, _⟩ => show win0_4.index t (1 : Fin 2) * 64 + 1 * q.val = q.val; omega))
  have b3 : (fun q : Fin 64 => iblk0 V c 3 t (ix2 (0 : Fin 1) q)) = fun q => rowOf (V c main_v23) (ix1 q) :=
    funext fun q => by
      show V c main_v23 (((cfg0.win 3).blk t).view.emb (ix2 (0 : Fin 1) q)) = V c main_v23 (ix2 (0 : Fin 1) q)
      exact congrArg (V c main_v23) (funext fun a => Fin.ext (by
        match a with
        | ⟨0, _⟩ => show win0_3.index t (0 : Fin 2) * 1 + 1 * 0 = 0; omega
        | ⟨1, _⟩ => show win0_3.index t (1 : Fin 2) * 64 + 1 * q.val = q.val; omega))
  have b5 : (fun q : Fin 64 => iblk0 V c 5 t (ix2 (0 : Fin 1) q)) = fun q => rowOf (V c main_v24) (ix1 q) :=
    funext fun q => by
      show V c main_v24 (((cfg0.win 5).blk t).view.emb (ix2 (0 : Fin 1) q)) = V c main_v24 (ix2 (0 : Fin 1) q)
      exact congrArg (V c main_v24) (funext fun a => Fin.ext (by
        match a with
        | ⟨0, _⟩ => show win0_5.index t (0 : Fin 2) * 1 + 1 * 0 = 0; omega
        | ⟨1, _⟩ => show win0_5.index t (1 : Fin 2) * 64 + 1 * q.val = q.val; omega))
  have b6 : (fun q : Fin 64 => iblk0 V c 6 t (ix2 (0 : Fin 1) q)) = fun q => rowOf (V c main_v25) (ix1 q) :=
    funext fun q => by
      show V c main_v25 (((cfg0.win 6).blk t).view.emb (ix2 (0 : Fin 1) q)) = V c main_v25 (ix2 (0 : Fin 1) q)
      exact congrArg (V c main_v25) (funext fun a => Fin.ext (by
        match a with
        | ⟨0, _⟩ => show win0_6.index t (0 : Fin 2) * 1 + 1 * 0 = 0; omega
        | ⟨1, _⟩ => show win0_6.index t (1 : Fin 2) * 64 + 1 * q.val = q.val; omega))
  have b7 : (fun q : Fin 64 => iblk0 V c 7 t (ix2 (0 : Fin 1) q)) = fun q => rowOf (V c main_v26) (ix1 q) :=
    funext fun q => by
      show V c main_v26 (((cfg0.win 7).blk t).view.emb (ix2 (0 : Fin 1) q)) = V c main_v26 (ix2 (0 : Fin 1) q)
      exact congrArg (V c main_v26) (funext fun a => Fin.ext (by
        match a with
        | ⟨0, _⟩ => show win0_7.index t (0 : Fin 2) * 1 + 1 * 0 = 0; omega
        | ⟨1, _⟩ => show win0_7.index t (1 : Fin 2) * 64 + 1 * q.val = q.val; omega))
  have b8 : (fun q : Fin 64 => iblk0 V c 8 t (ix2 (0 : Fin 1) q)) = fun q => rowOf (V c main_v27) (ix1 q) :=
    funext fun q => by
      show V c main_v27 (((cfg0.win 8).blk t).view.emb (ix2 (0 : Fin 1) q)) = V c main_v27 (ix2 (0 : Fin 1) q)
      exact congrArg (V c main_v27) (funext fun a => Fin.ext (by
        match a with
        | ⟨0, _⟩ => show win0_8.index t (0 : Fin 2) * 1 + 1 * 0 = 0; omega
        | ⟨1, _⟩ => show win0_8.index t (1 : Fin 2) * 64 + 1 * q.val = q.val; omega))
  rw [b0, b1, b2, b4, b3, b5, b6, b7, b8]

/-- An index of the output array is in point `t`'s block iff each coordinate is in the block's range on its axis. -/
theorem mem_blk (t : Fin cfg0.N) (i : S100000x64.Idx) :
    i ∈ ((cfg0.win 9).blk t).view.set ↔ ∀ a : Fin 2, win0_9.index t a * S10000x64.size a ≤ (i a).val ∧ (i a).val < win0_9.index t a * S10000x64.size a + S10000x64.size a := by
  show i ∈ ((View.whole main_v28).slice (win0_9.rect t)).set ↔ _
  rw [View.set_slice_whole, Rect.mem_set_unit]
  exact Iff.rfl

/-- The ten blocks cover the output array: row `p` lies in the block of point `p / 10000`. -/
theorem cover (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := idx_onto ⟨(i 0).val / 10000, by omega⟩
  have q0 : win0_9.index t (0 : Fin 2) = (i 0).val / 10000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 64 ≤ (i 1).val ∧ (i 1).val < win0_9.index t (1 : Fin 2) * 64 + 64; omega

/-- THE OUTPUT ARRAY after the region: the layer's row transform of the arrays the region found, whatever they are. -/
theorem final (c : Dev nD) : (dat0 V c).arrAt 9 cfg0.N = layerOut V c :=
  (dat0 V c).arrAt_eq_of_cover 9 _ (fun t _ => flushed_eq V c t) cover

end Cert.KernelIdeal.DenseValue0

end
-- ==== Proof.Dense1.lean ====
/-
  The second dense region, from its blocks to its array.

  The region's grid has ten points; point `t` stages rows 10000·t … 10000·t + 9999 of the averaged-neighbour array and
  of the feature array, the whole of the two weight matrices and of the five one-row parameter arrays, runs the body,
  and writes the resulting 10000×64 block back to rows 10000·t … of the output array. Whatever the buffers hold when the
  region is entered (`V`), the output array therefore ends holding the layer's row transform of those contents, index by
  index: what point `t` writes back is block `t` of that one whole-array function (the body's value at an entry is the
  row transform of the staged rows, and a staged row is the array's row at the block's offset), and the ten blocks
  cover the array (row `p` lies in block `p / 10000`).
-/
import proofs.«174914_j24137716203811_1_alg».proof.Proof.Gen.KernelIdeal.Frame
import proofs.«174914_j24137716203811_1_alg».proof.Proof.DensePay
import Idealize.ShloMosaic.Lib.Pipeline.Value

set_option maxRecDepth 16384

noncomputable section

namespace Cert.KernelIdeal.DenseValue1

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the layer's row transform of the arrays the region finds. -/
def layerOut (c : Dev nD) : S100000x64.Idx → EReal :=
  denseArr (V c main_v47) (V c main_v28) (V c main_arg11) (V c main_arg13) (rowOf (V c main_v48)) (rowOf (V c main_v49))
    (rowOf (V c main_v50)) (rowOf (V c main_v51)) (rowOf (V c main_v52))

/-- The printed index maps, decided over the ten grid points: the two row-blocked inputs move with the output along
    the rows, every other window stays at the origin, and the output's row-block index is the point's number. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 9 ∧ win1_9.index t (1 : Fin 2) = 0 :=
  (by decide +kernel : ∀ t : Fin grid1.N, _)

/-- Every row block is some point's. -/
theorem idx_onto : ∀ (b : Fin 10), ∃ t : Fin cfg1.N, win1_9.index t = ![b.val, 0] :=
  (by decide +kernel : ∀ (b : Fin 10), ∃ t : Fin grid1.N, win1_9.index t = ![b.val, 0])

/-- WHAT POINT `t` WRITES BACK is block `t` of the layer's output function. -/
theorem flushed_eq (c : Dev nD) (t : Fin cfg1.N) :
    (dat1 V c).flushed 9 t = ((cfg1.win 9).blk t).view.read (Elt Ideal) (layerOut V c) := by
  show (cfg1.win 9).cut (grid1.coords t) ((dat1 V c).after 9 t) = _
  rw [after1_9]
  unfold out1_9
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71, e80, e81, e90, e91⟩ := idx_facts t
  funext j
  obtain ⟨r, q, rfl⟩ : ∃ (r : Fin 10000) (q : Fin 64), j = ix2 r q := ⟨j 0, j 1, eq_ix2 j⟩
  have hr : r.val < 10000 := r.isLt
  have hq : q.val < 64 := q.isLt
  have hP : win1_9.index t (0 : Fin 2) * 10000 + r.val < 100000 := by omega
  have hE : ((cfg1.win 9).blk t).view.emb (ix2 r q) = ix2 (⟨win1_9.index t (0 : Fin 2) * 10000 + r.val, hP⟩ : Fin 100000) q :=
    funext fun a => Fin.ext (by
      match a with
      | ⟨0, _⟩ => show win1_9.index t (0 : Fin 2) * 10000 + 1 * r.val = win1_9.index t (0 : Fin 2) * 10000 + r.val; omega
      | ⟨1, _⟩ => show win1_9.index t (1 : Fin 2) * 64 + 1 * q.val = q.val; omega)
  show k1_pay1 (iblk1 V c 0 t) (iblk1 V c 1 t) (iblk1 V c 2 t) (iblk1 V c 4 t) (iblk1 V c 3 t) (iblk1 V c 8 t)
        (iblk1 V c 7 t) (iblk1 V c 5 t) (iblk1 V c 6 t) (ix2 r q) = layerOut V c (((cfg1.win 9).blk t).view.emb (ix2 r q))
  rw [hE]
  unfold layerOut
  rw [denseArr_ix2]
  refine (DensePay.pay1_apply (iblk1 V c 0 t) (iblk1 V c 1 t) (iblk1 V c 2 t) (iblk1 V c 4 t) (iblk1 V c 3 t) (iblk1 V c 8 t)
    (iblk1 V c 7 t) (iblk1 V c 5 t) (iblk1 V c 6 t) r q).trans ?_
  have b0 : (fun k : Fin 64 => iblk1 V c 0 t (ix2 r k)) = fun k => V c main_v47 (ix2 (⟨win1_9.index t (0 : Fin 2) * 10000 + r.val, hP⟩ : Fin 100000) k) :=
    funext fun k => by
      show V c main_v47 (((cfg1.win 0).blk t).view.emb (ix2 r k)) = _
      exact congrArg (V c main_v47) (funext fun a => Fin.ext (by
        match a with
        | ⟨0, _⟩ => show win1_0.index t (0 : Fin 2) * 10000 + 1 * r.val = win1_9.index t (0 : Fin 2) * 10000 + r.val; omega
        | ⟨1, _⟩ => show win1_0.index t (1 : Fin 2) * 64 + 1 * k.val = k.val; omega))
  have b1 : (fun k : Fin 64 => iblk1 V c 1 t (ix2 r k)) = fun k => V c main_v28 (ix2 (⟨win1_9.index t (0 : Fin 2) * 10000 + r.val, hP⟩ : Fin 100000) k) :=
    funext fun k => by
      show V c main_v28 (((cfg1.win 1).blk t).view.emb (ix2 r k)) = _
      exact congrArg (V c main_v28) (funext fun a => Fin.ext (by
        match a with
        | ⟨0, _⟩ => show win1_1.index t (0 : Fin 2) * 10000 + 1 * r.val = win1_9.index t (0 : Fin 2) * 10000 + r.val; omega
        | ⟨1, _⟩ => show win1_1.index t (1 : Fin 2) * 64 + 1 * k.val = k.val; omega))
  have b2 : (fun (k : Fin 64) (q : Fin 64) => iblk1 V c 2 t (ix2 k q)) = fun k q => V c main_arg11 (ix2 k q) :=
    funext fun k => funext fun q => by
      show V c main_arg11 (((cfg1.win 2).blk t).view.emb (ix2 k q)) = _
      exact congrArg (V c main_arg11) (funext fun a => Fin.ext (by
        match a with
        | ⟨0, _⟩ => show win1_2.index t (0 : Fin 2) * 64 + 1 * k.val = k.val; omega
        | ⟨1, _⟩ => show win1_2.index t (1 : Fin 2) * 64 + 1 * q.val = q.val; omega))
  have b4 : (fun (k : Fin 64) (q : Fin 64) => iblk1 V c 4 t (ix2 k q)) = fun k q => V c main_arg13 (ix2 k q) :=
    funext fun k => funext fun q => by
      show V c main_arg13 (((cfg1.win 4).blk t).view.emb (ix2 k q)) = _
      exact congrArg (V c main_arg13) (funext fun a => Fin.ext (by
        match a with
        | ⟨0, _⟩ => show win1_4.index t (0 : Fin 2) * 64 + 1 * k.val = k.val; omega
        | ⟨1, _⟩ => show win1_4.index t (1 : Fin 2) * 64 + 1 * q.val = q.val; omega))
  have b3 : (fun q : Fin 64 => iblk1 V c 3 t (ix2 (0 : Fin 1) q)) = fun q => rowOf (V c main_v48) (ix1 q) :=
    funext fun q => by
      show V c main_v48 (((cfg1.win 3).blk t).view.emb (ix2 (0 : Fin 1) q)) = V c main_v48 (ix2 (0 : Fin 1) q)
      exact congrArg (V c main_v48) (funext fun a => Fin.ext (by
        match a with
        | ⟨0, _⟩ => show win1_3.index t (0 : Fin 2) * 1 + 1 * 0 = 0; omega
        | ⟨1, _⟩ => show win1_3.index t (1 : Fin 2) * 64 + 1 * q.val = q.val; omega))
  have b5 : (fun q : Fin 64 => iblk1 V c 5 t (ix2 (0 : Fin 1) q)) = fun q => rowOf (V c main_v49) (ix1 q) :=
    funext fun q => by
      show V c main_v49 (((cfg1.win 5).blk t).view.emb (ix2 (0 : Fin 1) q)) = V c main_v49 (ix2 (0 : Fin 1) q)
      exact congrArg (V c main_v49) (funext fun a => Fin.ext (by
        match a with
        | ⟨0, _⟩ => show win1_5.index t (0 : Fin 2) * 1 + 1 * 0 = 0; omega
        | ⟨1, _⟩ => show win1_5.index t (1 : Fin 2) * 64 + 1 * q.val = q.val; omega))
  have b6 : (fun q : Fin 64 => iblk1 V c 6 t (ix2 (0 : Fin 1) q)) = fun q => rowOf (V c main_v50) (ix1 q) :=
    funext fun q => by
      show V c main_v50 (((cfg1.win 6).blk t).view.emb (ix2 (0 : Fin 1) q)) = V c main_v50 (ix2 (0 : Fin 1) q)
      exact congrArg (V c main_v50) (funext fun a => Fin.ext (by
        match a with
        | ⟨0, _⟩ => show win1_6.index t (0 : Fin 2) * 1 + 1 * 0 = 0; omega
        | ⟨1, _⟩ => show win1_6.index t (1 : Fin 2) * 64 + 1 * q.val = q.val; omega))
  have b7 : (fun q : Fin 64 => iblk1 V c 7 t (ix2 (0 : Fin 1) q)) = fun q => rowOf (V c main_v51) (ix1 q) :=
    funext fun q => by
      show V c main_v51 (((cfg1.win 7).blk t).view.emb (ix2 (0 : Fin 1) q)) = V c main_v51 (ix2 (0 : Fin 1) q)
      exact congrArg (V c main_v51) (funext fun a => Fin.ext (by
        match a with
        | ⟨0, _⟩ => show win1_7.index t (0 : Fin 2) * 1 + 1 * 0 = 0; omega
        | ⟨1, _⟩ => show win1_7.index t (1 : Fin 2) * 64 + 1 * q.val = q.val; omega))
  have b8 : (fun q : Fin 64 => iblk1 V c 8 t (ix2 (0 : Fin 1) q)) = fun q => rowOf (V c main_v52) (ix1 q) :=
    funext fun q => by
      show V c main_v52 (((cfg1.win 8).blk t).view.emb (ix2 (0 : Fin 1) q)) = V c main_v52 (ix2 (0 : Fin 1) q)
      exact congrArg (V c main_v52) (funext fun a => Fin.ext (by
        match a with
        | ⟨0, _⟩ => show win1_8.index t (0 : Fin 2) * 1 + 1 * 0 = 0; omega
        | ⟨1, _⟩ => show win1_8.index t (1 : Fin 2) * 64 + 1 * q.val = q.val; omega))
  rw [b0, b1, b2, b4, b3, b5, b6, b7, b8]

/-- An index of the output array is in point `t`'s block iff each coordinate is in the block's range on its axis. -/
theorem mem_blk (t : Fin cfg1.N) (i : S100000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v53).slice (win1_9.rect t)).set ↔ _
  rw [View.set_slice_whole, Rect.mem_set_unit]
  exact Iff.rfl

/-- The ten blocks cover the output array: row `p` lies in the block of point `p / 10000`. -/
theorem cover (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ := idx_onto ⟨(i 0).val / 10000, by omega⟩
  have q0 : win1_9.index t (0 : Fin 2) = (i 0).val / 10000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 64 ≤ (i 1).val ∧ (i 1).val < win1_9.index t (1 : Fin 2) * 64 + 64; omega

/-- THE OUTPUT ARRAY after the region: the layer's row transform of the arrays the region found, whatever they are. -/
theorem final (c : Dev nD) : (dat1 V c).arrAt 9 cfg1.N = layerOut V c :=
  (dat1 V c).arrAt_eq_of_cover 9 _ (fun t _ => flushed_eq V c t) cover

end Cert.KernelIdeal.DenseValue1

end
-- ==== Proof.Dense2.lean ====
/-
  The third dense region, from its blocks to its array.

  The region's grid has ten points; point `t` stages rows 10000·t … 10000·t + 9999 of the averaged-neighbour array and
  of the feature array, the whole of the two weight matrices and of the five one-row parameter arrays, runs the body,
  and writes the resulting 10000×64 block back to rows 10000·t … of the output array. Whatever the buffers hold when the
  region is entered (`V`), the output array therefore ends holding the layer's row transform of those contents, index by
  index: what point `t` writes back is block `t` of that one whole-array function (the body's value at an entry is the
  row transform of the staged rows, and a staged row is the array's row at the block's offset), and the ten blocks
  cover the array (row `p` lies in block `p / 10000`).
-/
import proofs.«174914_j24137716203811_1_alg».proof.Proof.Gen.KernelIdeal.Frame
import proofs.«174914_j24137716203811_1_alg».proof.Proof.DensePay
import Idealize.ShloMosaic.Lib.Pipeline.Value

set_option maxRecDepth 16384

noncomputable section

namespace Cert.KernelIdeal.DenseValue2

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the layer's row transform of the arrays the region finds. -/
def layerOut (c : Dev nD) : S100000x64.Idx → EReal :=
  denseArr (V c main_v72) (V c main_v53) (V c main_arg18) (V c main_arg20) (rowOf (V c main_v73)) (rowOf (V c main_v74))
    (rowOf (V c main_v75)) (rowOf (V c main_v76)) (rowOf (V c main_v77))

/-- The printed index maps, decided over the ten grid points: the two row-blocked inputs move with the output along
    the rows, every other window stays at the origin, and the output's row-block index is the point's number. -/
theorem idx_facts : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 9 ∧ win2_9.index t (1 : Fin 2) = 0 :=
  (by decide +kernel : ∀ t : Fin grid2.N, _)

/-- Every row block is some point's. -/
theorem idx_onto : ∀ (b : Fin 10), ∃ t : Fin cfg2.N, win2_9.index t = ![b.val, 0] :=
  (by decide +kernel : ∀ (b : Fin 10), ∃ t : Fin grid2.N, win2_9.index t = ![b.val, 0])

/-- WHAT POINT `t` WRITES BACK is block `t` of the layer's output function. -/
theorem flushed_eq (c : Dev nD) (t : Fin cfg2.N) :
    (dat2 V c).flushed 9 t = ((cfg2.win 9).blk t).view.read (Elt Ideal) (layerOut V c) := by
  show (cfg2.win 9).cut (grid2.coords t) ((dat2 V c).after 9 t) = _
  rw [after2_9]
  unfold out2_9
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71, e80, e81, e90, e91⟩ := idx_facts t
  funext j
  obtain ⟨r, q, rfl⟩ : ∃ (r : Fin 10000) (q : Fin 64), j = ix2 r q := ⟨j 0, j 1, eq_ix2 j⟩
  have hr : r.val < 10000 := r.isLt
  have hq : q.val < 64 := q.isLt
  have hP : win2_9.index t (0 : Fin 2) * 10000 + r.val < 100000 := by omega
  have hE : ((cfg2.win 9).blk t).view.emb (ix2 r q) = ix2 (⟨win2_9.index t (0 : Fin 2) * 10000 + r.val, hP⟩ : Fin 100000) q :=
    funext fun a => Fin.ext (by
      match a with
      | ⟨0, _⟩ => show win2_9.index t (0 : Fin 2) * 10000 + 1 * r.val = win2_9.index t (0 : Fin 2) * 10000 + r.val; omega
      | ⟨1, _⟩ => show win2_9.index t (1 : Fin 2) * 64 + 1 * q.val = q.val; omega)
  show k2_pay1 (iblk2 V c 0 t) (iblk2 V c 1 t) (iblk2 V c 2 t) (iblk2 V c 4 t) (iblk2 V c 3 t) (iblk2 V c 8 t)
        (iblk2 V c 7 t) (iblk2 V c 5 t) (iblk2 V c 6 t) (ix2 r q) = layerOut V c (((cfg2.win 9).blk t).view.emb (ix2 r q))
  rw [hE]
  unfold layerOut
  rw [denseArr_ix2]
  refine (DensePay.pay2_apply (iblk2 V c 0 t) (iblk2 V c 1 t) (iblk2 V c 2 t) (iblk2 V c 4 t) (iblk2 V c 3 t) (iblk2 V c 8 t)
    (iblk2 V c 7 t) (iblk2 V c 5 t) (iblk2 V c 6 t) r q).trans ?_
  have b0 : (fun k : Fin 64 => iblk2 V c 0 t (ix2 r k)) = fun k => V c main_v72 (ix2 (⟨win2_9.index t (0 : Fin 2) * 10000 + r.val, hP⟩ : Fin 100000) k) :=
    funext fun k => by
      show V c main_v72 (((cfg2.win 0).blk t).view.emb (ix2 r k)) = _
      exact congrArg (V c main_v72) (funext fun a => Fin.ext (by
        match a with
        | ⟨0, _⟩ => show win2_0.index t (0 : Fin 2) * 10000 + 1 * r.val = win2_9.index t (0 : Fin 2) * 10000 + r.val; omega
        | ⟨1, _⟩ => show win2_0.index t (1 : Fin 2) * 64 + 1 * k.val = k.val; omega))
  have b1 : (fun k : Fin 64 => iblk2 V c 1 t (ix2 r k)) = fun k => V c main_v53 (ix2 (⟨win2_9.index t (0 : Fin 2) * 10000 + r.val, hP⟩ : Fin 100000) k) :=
    funext fun k => by
      show V c main_v53 (((cfg2.win 1).blk t).view.emb (ix2 r k)) = _
      exact congrArg (V c main_v53) (funext fun a => Fin.ext (by
        match a with
        | ⟨0, _⟩ => show win2_1.index t (0 : Fin 2) * 10000 + 1 * r.val = win2_9.index t (0 : Fin 2) * 10000 + r.val; omega
        | ⟨1, _⟩ => show win2_1.index t (1 : Fin 2) * 64 + 1 * k.val = k.val; omega))
  have b2 : (fun (k : Fin 64) (q : Fin 64) => iblk2 V c 2 t (ix2 k q)) = fun k q => V c main_arg18 (ix2 k q) :=
    funext fun k => funext fun q => by
      show V c main_arg18 (((cfg2.win 2).blk t).view.emb (ix2 k q)) = _
      exact congrArg (V c main_arg18) (funext fun a => Fin.ext (by
        match a with
        | ⟨0, _⟩ => show win2_2.index t (0 : Fin 2) * 64 + 1 * k.val = k.val; omega
        | ⟨1, _⟩ => show win2_2.index t (1 : Fin 2) * 64 + 1 * q.val = q.val; omega))
  have b4 : (fun (k : Fin 64) (q : Fin 64) => iblk2 V c 4 t (ix2 k q)) = fun k q => V c main_arg20 (ix2 k q) :=
    funext fun k => funext fun q => by
      show V c main_arg20 (((cfg2.win 4).blk t).view.emb (ix2 k q)) = _
      exact congrArg (V c main_arg20) (funext fun a => Fin.ext (by
        match a with
        | ⟨0, _⟩ => show win2_4.index t (0 : Fin 2) * 64 + 1 * k.val = k.val; omega
        | ⟨1, _⟩ => show win2_4.index t (1 : Fin 2) * 64 + 1 * q.val = q.val; omega))
  have b3 : (fun q : Fin 64 => iblk2 V c 3 t (ix2 (0 : Fin 1) q)) = fun q => rowOf (V c main_v73) (ix1 q) :=
    funext fun q => by
      show V c main_v73 (((cfg2.win 3).blk t).view.emb (ix2 (0 : Fin 1) q)) = V c main_v73 (ix2 (0 : Fin 1) q)
      exact congrArg (V c main_v73) (funext fun a => Fin.ext (by
        match a with
        | ⟨0, _⟩ => show win2_3.index t (0 : Fin 2) * 1 + 1 * 0 = 0; omega
        | ⟨1, _⟩ => show win2_3.index t (1 : Fin 2) * 64 + 1 * q.val = q.val; omega))
  have b5 : (fun q : Fin 64 => iblk2 V c 5 t (ix2 (0 : Fin 1) q)) = fun q => rowOf (V c main_v74) (ix1 q) :=
    funext fun q => by
      show V c main_v74 (((cfg2.win 5).blk t).view.emb (ix2 (0 : Fin 1) q)) = V c main_v74 (ix2 (0 : Fin 1) q)
      exact congrArg (V c main_v74) (funext fun a => Fin.ext (by
        match a with
        | ⟨0, _⟩ => show win2_5.index t (0 : Fin 2) * 1 + 1 * 0 = 0; omega
        | ⟨1, _⟩ => show win2_5.index t (1 : Fin 2) * 64 + 1 * q.val = q.val; omega))
  have b6 : (fun q : Fin 64 => iblk2 V c 6 t (ix2 (0 : Fin 1) q)) = fun q => rowOf (V c main_v75) (ix1 q) :=
    funext fun q => by
      show V c main_v75 (((cfg2.win 6).blk t).view.emb (ix2 (0 : Fin 1) q)) = V c main_v75 (ix2 (0 : Fin 1) q)
      exact congrArg (V c main_v75) (funext fun a => Fin.ext (by
        match a with
        | ⟨0, _⟩ => show win2_6.index t (0 : Fin 2) * 1 + 1 * 0 = 0; omega
        | ⟨1, _⟩ => show win2_6.index t (1 : Fin 2) * 64 + 1 * q.val = q.val; omega))
  have b7 : (fun q : Fin 64 => iblk2 V c 7 t (ix2 (0 : Fin 1) q)) = fun q => rowOf (V c main_v76) (ix1 q) :=
    funext fun q => by
      show V c main_v76 (((cfg2.win 7).blk t).view.emb (ix2 (0 : Fin 1) q)) = V c main_v76 (ix2 (0 : Fin 1) q)
      exact congrArg (V c main_v76) (funext fun a => Fin.ext (by
        match a with
        | ⟨0, _⟩ => show win2_7.index t (0 : Fin 2) * 1 + 1 * 0 = 0; omega
        | ⟨1, _⟩ => show win2_7.index t (1 : Fin 2) * 64 + 1 * q.val = q.val; omega))
  have b8 : (fun q : Fin 64 => iblk2 V c 8 t (ix2 (0 : Fin 1) q)) = fun q => rowOf (V c main_v77) (ix1 q) :=
    funext fun q => by
      show V c main_v77 (((cfg2.win 8).blk t).view.emb (ix2 (0 : Fin 1) q)) = V c main_v77 (ix2 (0 : Fin 1) q)
      exact congrArg (V c main_v77) (funext fun a => Fin.ext (by
        match a with
        | ⟨0, _⟩ => show win2_8.index t (0 : Fin 2) * 1 + 1 * 0 = 0; omega
        | ⟨1, _⟩ => show win2_8.index t (1 : Fin 2) * 64 + 1 * q.val = q.val; omega))
  rw [b0, b1, b2, b4, b3, b5, b6, b7, b8]

/-- An index of the output array is in point `t`'s block iff each coordinate is in the block's range on its axis. -/
theorem mem_blk (t : Fin cfg2.N) (i : S100000x64.Idx) :
    i ∈ ((cfg2.win 9).blk t).view.set ↔ ∀ a : Fin 2, win2_9.index t a * S10000x64.size a ≤ (i a).val ∧ (i a).val < win2_9.index t a * S10000x64.size a + S10000x64.size a := by
  show i ∈ ((View.whole main_v78).slice (win2_9.rect t)).set ↔ _
  rw [View.set_slice_whole, Rect.mem_set_unit]
  exact Iff.rfl

/-- The ten blocks cover the output array: row `p` lies in the block of point `p / 10000`. -/
theorem cover (i : S100000x64.Idx) : ∃ t : Fin cfg2.N, (cfg2.win 9).flush t = true ∧ i ∈ ((cfg2.win 9).blk t).view.set := by
  have hi0 : (i 0).val < 100000 := (i 0).isLt
  have hi1 : (i 1).val < 64 := (i 1).isLt
  obtain ⟨t, ht⟩ := idx_onto ⟨(i 0).val / 10000, by omega⟩
  have q0 : win2_9.index t (0 : Fin 2) = (i 0).val / 10000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 10000 ≤ (i 0).val ∧ (i 0).val < win2_9.index t (0 : Fin 2) * 10000 + 10000; omega
  | ⟨1, _⟩ => show win2_9.index t (1 : Fin 2) * 64 ≤ (i 1).val ∧ (i 1).val < win2_9.index t (1 : Fin 2) * 64 + 64; omega

/-- THE OUTPUT ARRAY after the region: the layer's row transform of the arrays the region found, whatever they are. -/
theorem final (c : Dev nD) : (dat2 V c).arrAt 9 cfg2.N = layerOut V c :=
  (dat2 V c).arrAt_eq_of_cover 9 _ (fun t _ => flushed_eq V c t) cover

end Cert.KernelIdeal.DenseValue2

end
-- ==== Proof.ClfPay.lean ====
/-
  The classifier kernel's body, read at an entry.

  The one grid point stages the whole 128×68 embedding array, the two weight matrices and the two one-row biases. At
  graph `p` and logit `q` the body is the hidden layer's 32 rectified pre-activations — each the sum over the 68
  embedding entries against a column of the first matrix, plus its bias — contracted against column `q` of the second
  matrix, plus the second bias: the specification's classifier row, as spelt.
-/
import proofs.«174914_j24137716203811_1_alg».proof.Proof.Gen.KernelIdeal.Skeleton
import proofs.«174914_j24137716203811_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ClfPay

open Cert.KernelIdeal Cert.KernelIdeal.Gen Cert.GraphNet Idealize.ShloMosaic Idealize.ShloMosaic.ValueIdx

/-- The operand indices of the 128×68 by 68×32 product at an output index and a contraction index, coordinate by
    coordinate. -/
theorem lhsH_coord0 (i : S128x32.Idx) (c : dot_S128x68_S68x32_S128x32_1_0_0_1_n_n.contr.Idx) : (dot_S128x68_S68x32_S128x32_1_0_0_1_n_n.lhsIdx i c 0).val = (i 0).val := by
  unfold DotDims.lhsIdx
  rw [dif_neg (show ¬(0 : Fin S128x68.rank) ∈ dot_S128x68_S68x32_S128x32_1_0_0_1_n_n.lhsBatch by decide), dif_pos (show (0 : Fin S128x68.rank) ∈ dot_S128x68_S68x32_S128x32_1_0_0_1_n_n.lhsNonContracting by decide)]
  rfl
theorem lhsH_coord1 (i : S128x32.Idx) (c : dot_S128x68_S68x32_S128x32_1_0_0_1_n_n.contr.Idx) : (dot_S128x68_S68x32_S128x32_1_0_0_1_n_n.lhsIdx i c 1).val = (c ⟨0, by decide⟩).val :=
  dot_S128x68_S68x32_S128x32_1_0_0_1_n_n.lhsIdx_val_of_single rfl i c
theorem rhsH_coord0 (i : S128x32.Idx) (c : dot_S128x68_S68x32_S128x32_1_0_0_1_n_n.contr.Idx) : (dot_S128x68_S68x32_S128x32_1_0_0_1_n_n.rhsIdx i c 0).val = (c ⟨0, by decide⟩).val :=
  dot_S128x68_S68x32_S128x32_1_0_0_1_n_n.rhsIdx_val_of_single rfl i c
theorem rhsH_coord1 (i : S128x32.Idx) (c : dot_S128x68_S68x32_S128x32_1_0_0_1_n_n.contr.Idx) : (dot_S128x68_S68x32_S128x32_1_0_0_1_n_n.rhsIdx i c 1).val = (i 1).val := by
  unfold DotDims.rhsIdx
  rw [dif_neg (show ¬(1 : Fin S68x32.rank) ∈ dot_S128x68_S68x32_S128x32_1_0_0_1_n_n.rhsBatch by decide), dif_pos (show (1 : Fin S68x32.rank) ∈ dot_S128x68_S68x32_S128x32_1_0_0_1_n_n.rhsNonContracting by decide)]
  rfl

/-- The matrix unit's 128×68 by 68×32 product into a zero accumulator, at row `r` and column `q`: the sum over the
    contracted axis. -/
theorem matmulH_apply (x : FVec Ideal S128x68 .bf16) (w : FVec Ideal S68x32 .bf16) (r : Fin 128) (q : Fin 32) :
    matmul dot_S128x68_S68x32_S128x32_1_0_0_1_n_n none x w (constant (F := Ideal) S128x32 .f32 0x00000000#32) (ix2 r q)
      = ∑ k : Fin 68, x (ix2 r k) * w (ix2 k q) := by
  show FloatOps.matmul dot_S128x68_S68x32_S128x32_1_0_0_1_n_n none x w (constant (F := Ideal) S128x32 .f32 0x00000000#32) (ix2 r q) = _
  rw [Ideal.matmul_constant_zero_apply, ← Equiv.sum_comp (contrEquiv1 dot_S128x68_S68x32_S128x32_1_0_0_1_n_n 68 rfl rfl).symm]
  refine Finset.sum_congr rfl fun k _ => ?_
  have hk := contrEquiv1_symm_val dot_S128x68_S68x32_S128x32_1_0_0_1_n_n 68 rfl rfl k
  have el : dot_S128x68_S68x32_S128x32_1_0_0_1_n_n.lhsIdx (ix2 r q) ((contrEquiv1 dot_S128x68_S68x32_S128x32_1_0_0_1_n_n 68 rfl rfl).symm k) = ix2 r k := funext fun a => Fin.ext (by
    match a with
    | ⟨0, _⟩ => exact lhsH_coord0 _ _
    | ⟨1, _⟩ => exact (lhsH_coord1 _ _).trans hk)
  have er : dot_S128x68_S68x32_S128x32_1_0_0_1_n_n.rhsIdx (ix2 r q) ((contrEquiv1 dot_S128x68_S68x32_S128x32_1_0_0_1_n_n 68 rfl rfl).symm k) = ix2 k q := funext fun a => Fin.ext (by
    match a with
    | ⟨0, _⟩ => exact (rhsH_coord0 _ _).trans hk
    | ⟨1, _⟩ => exact rhsH_coord1 _ _)
  rw [el, er]

/-- The operand indices of the 128×32 by 32×2 product at an output index and a contraction index, coordinate by
    coordinate. -/
theorem lhsO_coord0 (i : S128x2.Idx) (c : dot_S128x32_S32x2_S128x2_1_0_0_1_n_n.contr.Idx) : (dot_S128x32_S32x2_S128x2_1_0_0_1_n_n.lhsIdx i c 0).val = (i 0).val := by
  unfold DotDims.lhsIdx
  rw [dif_neg (show ¬(0 : Fin S128x32.rank) ∈ dot_S128x32_S32x2_S128x2_1_0_0_1_n_n.lhsBatch by decide), dif_pos (show (0 : Fin S128x32.rank) ∈ dot_S128x32_S32x2_S128x2_1_0_0_1_n_n.lhsNonContracting by decide)]
  rfl
theorem lhsO_coord1 (i : S128x2.Idx) (c : dot_S128x32_S32x2_S128x2_1_0_0_1_n_n.contr.Idx) : (dot_S128x32_S32x2_S128x2_1_0_0_1_n_n.lhsIdx i c 1).val = (c ⟨0, by decide⟩).val :=
  dot_S128x32_S32x2_S128x2_1_0_0_1_n_n.lhsIdx_val_of_single rfl i c
theorem rhsO_coord0 (i : S128x2.Idx) (c : dot_S128x32_S32x2_S128x2_1_0_0_1_n_n.contr.Idx) : (dot_S128x32_S32x2_S128x2_1_0_0_1_n_n.rhsIdx i c 0).val = (c ⟨0, by decide⟩).val :=
  dot_S128x32_S32x2_S128x2_1_0_0_1_n_n.rhsIdx_val_of_single rfl i c
theorem rhsO_coord1 (i : S128x2.Idx) (c : dot_S128x32_S32x2_S128x2_1_0_0_1_n_n.contr.Idx) : (dot_S128x32_S32x2_S128x2_1_0_0_1_n_n.rhsIdx i c 1).val = (i 1).val := by
  unfold DotDims.rhsIdx
  rw [dif_neg (show ¬(1 : Fin S32x2.rank) ∈ dot_S128x32_S32x2_S128x2_1_0_0_1_n_n.rhsBatch by decide), dif_pos (show (1 : Fin S32x2.rank) ∈ dot_S128x32_S32x2_S128x2_1_0_0_1_n_n.rhsNonContracting by decide)]
  rfl

/-- The matrix unit's 128×32 by 32×2 product into a zero accumulator, at row `r` and column `q`: the sum over the
    contracted axis. -/
theorem matmulO_apply (x : FVec Ideal S128x32 .bf16) (w : FVec Ideal S32x2 .bf16) (r : Fin 128) (q : Fin 2) :
    matmul dot_S128x32_S32x2_S128x2_1_0_0_1_n_n none x w (constant (F := Ideal) S128x2 .f32 0x00000000#32) (ix2 r q)
      = ∑ k : Fin 32, x (ix2 r k) * w (ix2 k q) := by
  show FloatOps.matmul dot_S128x32_S32x2_S128x2_1_0_0_1_n_n none x w (constant (F := Ideal) S128x2 .f32 0x00000000#32) (ix2 r q) = _
  rw [Ideal.matmul_constant_zero_apply, ← Equiv.sum_comp (contrEquiv1 dot_S128x32_S32x2_S128x2_1_0_0_1_n_n 32 rfl rfl).symm]
  refine Finset.sum_congr rfl fun k _ => ?_
  have hk := contrEquiv1_symm_val dot_S128x32_S32x2_S128x2_1_0_0_1_n_n 32 rfl rfl k
  have el : dot_S128x32_S32x2_S128x2_1_0_0_1_n_n.lhsIdx (ix2 r q) ((contrEquiv1 dot_S128x32_S32x2_S128x2_1_0_0_1_n_n 32 rfl rfl).symm k) = ix2 r k := funext fun a => Fin.ext (by
    match a with
    | ⟨0, _⟩ => exact lhsO_coord0 _ _
    | ⟨1, _⟩ => exact (lhsO_coord1 _ _).trans hk)
  have er : dot_S128x32_S32x2_S128x2_1_0_0_1_n_n.rhsIdx (ix2 r q) ((contrEquiv1 dot_S128x32_S32x2_S128x2_1_0_0_1_n_n 32 rfl rfl).symm k) = ix2 k q := funext fun a => Fin.ext (by
    match a with
    | ⟨0, _⟩ => exact (rhsO_coord0 _ _).trans hk
    | ⟨1, _⟩ => exact rhsO_coord1 _ _)
  rw [el, er]

/-- The hidden layer's bias row broadcast over the 128 graphs reads, at (p, j), the row's entry `j`. -/
theorem bias1_apply (v : FVec Ideal S1x32 .f32) (p : Fin 128) (j : Fin 32) :
    broadcastTo S128x32 v broadcasts_S1x32_S128x32 (ix2 p j) = v (ix2 (0 : Fin 1) j) :=
  broadcastTo_1b_ab_apply v broadcasts_S1x32_S128x32 p j

/-- The output bias row broadcast over the 128 graphs reads, at (p, q), the row's entry `q`. -/
theorem bias2_apply (v : FVec Ideal S1x2 .f32) (p : Fin 128) (q : Fin 2) :
    broadcastTo S128x2 v broadcasts_S1x2_S128x2 (ix2 p q) = v (ix2 (0 : Fin 1) q) :=
  broadcastTo_1b_ab_apply v broadcasts_S1x2_S128x2 p q

/-- The classifier body at (p, q) is the specification's classifier row of graph `p`'s embedding. -/
theorem pay3_apply (e : Vec Ideal S128x68 .f32) (W1 : Vec Ideal S68x32 .f32) (b1 : Vec Ideal S1x32 .f32)
    (W2 : Vec Ideal S32x2 .f32) (b2 : Vec Ideal S1x2 .f32) (p : Fin 128) (q : Fin 2) :
    k3_pay1 (F := Ideal) e W1 b1 W2 b2 (ix2 p q)
      = clfRow (fun k => e (ix2 p k)) (fun k j => W1 (ix2 k j)) (fun j => b1 (ix2 (0 : Fin 1) j))
          (fun j q => W2 (ix2 j q)) (fun q => b2 (ix2 (0 : Fin 1) q)) q := by
  unfold k3_pay1 clfRow
  simp only [maximumf_apply, addf_apply, broadcast_apply, bias1_apply, bias2_apply, matmulH_apply, matmulO_apply,
    shapeCast_self, truncf_apply, Ideal.ofBits_def]

end Cert.KernelIdeal.ClfPay

end
-- ==== Proof.Clf.lean ====
/-
  The classifier region, from its one block to its array.

  The region's grid is a single point whose blocks are the whole arrays, so whatever the buffers hold when the region
  is entered (`V`), the logits array ends holding the specification's classifier of those contents, index by index:
  the point writes back the body's value, which at (p, q) is the classifier row of graph `p`'s staged embedding, and
  the staged arrays are the arrays themselves.
-/
import proofs.«174914_j24137716203811_1_alg».proof.Proof.Gen.KernelIdeal.Frame
import proofs.«174914_j24137716203811_1_alg».proof.Proof.ClfPay
import Idealize.ShloMosaic.Lib.Pipeline.Value

set_option maxRecDepth 16384

noncomputable section

namespace Cert.KernelIdeal.ClfValue

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the logits array ends holding: the classifier of the arrays the region finds. -/
def logitsOut (c : Dev nD) : S128x2.Idx → EReal :=
  clfArr (V c main_v91) (V c main_arg25) (rowOf (V c main_v92)) (V c main_arg27) (rowOf (V c main_v93))

/-- The printed index maps at the one grid point: every window's block sits at the origin. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- WHAT THE POINT WRITES BACK is the whole of the classifier's output function. -/
theorem flushed_eq (c : Dev nD) (t : Fin cfg3.N) :
    (dat3 V c).flushed 5 t = ((cfg3.win 5).blk t).view.read (Elt Ideal) (logitsOut V c) := by
  show (cfg3.win 5).cut (grid3.coords t) ((dat3 V c).after 5 t) = _
  rw [after3_5]
  unfold out3_5
  rw [View.canon_unit_zero hz]
  simp only [View.ld_unit_zero (S := S128x68) hz, View.ld_unit_zero (S := S68x32) hz, View.ld_unit_zero (S := S1x32) hz,
    View.ld_unit_zero (S := S32x2) hz, View.ld_unit_zero (S := S1x2) hz]
  obtain ⟨e00, e01, e10, e11, e20, e21, e30, e31, e40, e41, e50, e51⟩ := idx_facts t
  funext j
  obtain ⟨p, q, rfl⟩ : ∃ (p : Fin 128) (q : Fin 2), j = ix2 p q := ⟨j 0, j 1, eq_ix2 j⟩
  have hE : ((cfg3.win 5).blk t).view.emb (ix2 p q) = ix2 p q :=
    funext fun a => Fin.ext (by
      match a with
      | ⟨0, _⟩ => show win3_5.index t (0 : Fin 2) * 128 + 1 * p.val = p.val; omega
      | ⟨1, _⟩ => show win3_5.index t (1 : Fin 2) * 2 + 1 * q.val = q.val; omega)
  show k3_pay1 (iblk3 V c 0 t) (iblk3 V c 1 t) (iblk3 V c 2 t) (iblk3 V c 3 t) (iblk3 V c 4 t) (ix2 p q)
      = logitsOut V c (((cfg3.win 5).blk t).view.emb (ix2 p q))
  rw [hE]
  unfold logitsOut
  rw [clfArr_ix2]
  refine (ClfPay.pay3_apply (iblk3 V c 0 t) (iblk3 V c 1 t) (iblk3 V c 2 t) (iblk3 V c 3 t) (iblk3 V c 4 t) p q).trans ?_
  have b0 : (fun k : Fin 68 => iblk3 V c 0 t (ix2 p k)) = fun k => V c main_v91 (ix2 p k) :=
    funext fun k => by
      show V c main_v91 (((cfg3.win 0).blk t).view.emb (ix2 p k)) = _
      exact congrArg (V c main_v91) (funext fun a => Fin.ext (by
        match a with
        | ⟨0, _⟩ => show win3_0.index t (0 : Fin 2) * 128 + 1 * p.val = p.val; omega
        | ⟨1, _⟩ => show win3_0.index t (1 : Fin 2) * 68 + 1 * k.val = k.val; omega))
  have b1 : (fun (k : Fin 68) (j : Fin 32) => iblk3 V c 1 t (ix2 k j)) = fun k j => V c main_arg25 (ix2 k j) :=
    funext fun k => funext fun j => by
      show V c main_arg25 (((cfg3.win 1).blk t).view.emb (ix2 k j)) = _
      exact congrArg (V c main_arg25) (funext fun a => Fin.ext (by
        match a with
        | ⟨0, _⟩ => show win3_1.index t (0 : Fin 2) * 68 + 1 * k.val = k.val; omega
        | ⟨1, _⟩ => show win3_1.index t (1 : Fin 2) * 32 + 1 * j.val = j.val; omega))
  have b2 : (fun j : Fin 32 => iblk3 V c 2 t (ix2 (0 : Fin 1) j)) = fun j => rowOf (V c main_v92) (ix1 j) :=
    funext fun j => by
      show V c main_v92 (((cfg3.win 2).blk t).view.emb (ix2 (0 : Fin 1) j)) = V c main_v92 (ix2 (0 : Fin 1) j)
      exact congrArg (V c main_v92) (funext fun a => Fin.ext (by
        match a with
        | ⟨0, _⟩ => show win3_2.index t (0 : Fin 2) * 1 + 1 * 0 = 0; omega
        | ⟨1, _⟩ => show win3_2.index t (1 : Fin 2) * 32 + 1 * j.val = j.val; omega))
  have b3 : (fun (j : Fin 32) (q : Fin 2) => iblk3 V c 3 t (ix2 j q)) = fun j q => V c main_arg27 (ix2 j q) :=
    funext fun j => funext fun q => by
      show V c main_arg27 (((cfg3.win 3).blk t).view.emb (ix2 j q)) = _
      exact congrArg (V c main_arg27) (funext fun a => Fin.ext (by
        match a with
        | ⟨0, _⟩ => show win3_3.index t (0 : Fin 2) * 32 + 1 * j.val = j.val; omega
        | ⟨1, _⟩ => show win3_3.index t (1 : Fin 2) * 2 + 1 * q.val = q.val; omega))
  have b4 : (fun q : Fin 2 => iblk3 V c 4 t (ix2 (0 : Fin 1) q)) = fun q => rowOf (V c main_v93) (ix1 q) :=
    funext fun q => by
      show V c main_v93 (((cfg3.win 4).blk t).view.emb (ix2 (0 : Fin 1) q)) = V c main_v93 (ix2 (0 : Fin 1) q)
      exact congrArg (V c main_v93) (funext fun a => Fin.ext (by
        match a with
        | ⟨0, _⟩ => show win3_4.index t (0 : Fin 2) * 1 + 1 * 0 = 0; omega
        | ⟨1, _⟩ => show win3_4.index t (1 : Fin 2) * 2 + 1 * q.val = q.val; omega))
  rw [b0, b1, b2, b3, b4]

/-- An index of the logits array is in the point's block iff each coordinate is in the block's range on its axis. -/
theorem mem_blk (t : Fin cfg3.N) (i : S128x2.Idx) :
    i ∈ ((cfg3.win 5).blk t).view.set ↔ ∀ a : Fin 2, win3_5.index t a * S128x2.size a ≤ (i a).val ∧ (i a).val < win3_5.index t a * S128x2.size a + S128x2.size a := by
  show i ∈ ((View.whole main_v94).slice (win3_5.rect t)).set ↔ _
  rw [View.set_slice_whole, Rect.mem_set_unit]
  exact Iff.rfl

/-- The one block is the whole logits array. -/
theorem cover (i : S128x2.Idx) : ∃ t : Fin cfg3.N, (cfg3.win 5).flush t = true ∧ i ∈ ((cfg3.win 5).blk t).view.set := by
  have hi0 : (i 0).val < 128 := (i 0).isLt
  have hi1 : (i 1).val < 2 := (i 1).isLt
  obtain ⟨e00, e01, e10, e11, e20, e21, e30, e31, e40, e41, e50, e51⟩ := idx_facts t3_0
  refine ⟨t3_0, flush3_5 t3_0, ?_⟩
  rw [mem_blk]
  intro a
  match a with
  | ⟨0, _⟩ => show win3_5.index t3_0 (0 : Fin 2) * 128 ≤ (i 0).val ∧ (i 0).val < win3_5.index t3_0 (0 : Fin 2) * 128 + 128; omega
  | ⟨1, _⟩ => show win3_5.index t3_0 (1 : Fin 2) * 2 ≤ (i 1).val ∧ (i 1).val < win3_5.index t3_0 (1 : Fin 2) * 2 + 2; omega

/-- THE LOGITS ARRAY after the region: the classifier of the arrays the region found, whatever they are. -/
theorem final (c : Dev nD) : (dat3 V c).arrAt 5 cfg3.N = logitsOut V c :=
  (dat3 V c).arrAt_eq_of_cover 5 _ (fun t _ => flushed_eq V c t) cover

end Cert.KernelIdeal.ClfValue

end
-- ==== Proof.HostArgs.lean ====
/-
  The buffers no region writes, followed through the run.

  The contents of the TensorCore's buffers at the eight segment boundaries are a fold: a stretch of host operations
  changes only the buffers its operations write, a region only its windows' arrays. An argument array is written by
  nobody, and the two rows of the edge list (the source and the destination of every edge, cut out of the edge array by
  the first stretch) are written only there; so at every later boundary where they are read they still hold, the
  arguments their launch contents, and the two rows their slices of the launched edge array.
-/
import proofs.«174914_j24137716203811_1_alg».proof.Proof.Gen.KernelIdeal.Frame
import proofs.«174914_j24137716203811_1_alg».proof.Proof.Gen.ReferenceIdeal.Read
import Idealize.ShloMosaic.Lib.StableHlo.Run

set_option maxRecDepth 16384

noncomputable section

namespace Cert.KernelIdeal.HostArgs

open Cert.KernelIdeal Cert.KernelIdeal.Gen Idealize.ShloMosaic Idealize.ShloMosaic.TcCoe Idealize.SL.Sem Idealize.ShloMosaic.StableHlo
open Cert.ReferenceIdeal.Read (val_main_v1 val_main_v3)

variable (m : (ℓ : Loc nD τ sig) → Buf (Elt Ideal) ℓ) (ρ : Dev nD → PrngReg) (c : Dev nD)

/-! ## After the first stretch -/

/-- The edges' sources: row 0 of the edge array, as a vector. -/
theorem w1_src : W1 m ρ c (Proc.devRef .tc main_v1) = val_main_v1 (F := Ideal) (m ((c : Thread nD τ).loc main_arg1)) := by
  show StableHlo.after hostOps0 (W0 m ρ c) (Proc.devRef .tc main_v1) = _
  after_results_simp
  rfl
/-- The edges' destinations: row 1 of the edge array, as a vector. -/
theorem w1_dst : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem w1_arg2 : W1 m ρ c (Proc.devRef .tc main_arg2) = m ((c : Thread nD τ).loc main_arg2) := by
  show StableHlo.after hostOps0 (W0 m ρ c) (Proc.devRef .tc main_arg2) = _
  after_results_simp
theorem w1_arg3 : W1 m ρ c (Proc.devRef .tc main_arg3) = m ((c : Thread nD τ).loc main_arg3) := by
  show StableHlo.after hostOps0 (W0 m ρ c) (Proc.devRef .tc main_arg3) = _
  after_results_simp
theorem w1_arg4 : W1 m ρ c (Proc.devRef .tc main_arg4) = m ((c : Thread nD τ).loc main_arg4) := by
  show StableHlo.after hostOps0 (W0 m ρ c) (Proc.devRef .tc main_arg4) = _
  after_results_simp
theorem w1_arg6 : W1 m ρ c (Proc.devRef .tc main_arg6) = m ((c : Thread nD τ).loc main_arg6) := by
  show StableHlo.after hostOps0 (W0 m ρ c) (Proc.devRef .tc main_arg6) = _
  after_results_simp
theorem w1_arg11 : W1 m ρ c (Proc.devRef .tc main_arg11) = m ((c : Thread nD τ).loc main_arg11) := by
  show StableHlo.after hostOps0 (W0 m ρ c) (Proc.devRef .tc main_arg11) = _
  after_results_simp
theorem w1_arg12 : W1 m ρ c (Proc.devRef .tc main_arg12) = m ((c : Thread nD τ).loc main_arg12) := by
  show StableHlo.after hostOps0 (W0 m ρ c) (Proc.devRef .tc main_arg12) = _
  after_results_simp
theorem w1_arg13 : W1 m ρ c (Proc.devRef .tc main_arg13) = m ((c : Thread nD τ).loc main_arg13) := by
  show StableHlo.after hostOps0 (W0 m ρ c) (Proc.devRef .tc main_arg13) = _
  after_results_simp
theorem w1_arg14 : W1 m ρ c (Proc.devRef .tc main_arg14) = m ((c : Thread nD τ).loc main_arg14) := by
  show StableHlo.after hostOps0 (W0 m ρ c) (Proc.devRef .tc main_arg14) = _
  after_results_simp
theorem w1_arg15 : W1 m ρ c (Proc.devRef .tc main_arg15) = m ((c : Thread nD τ).loc main_arg15) := by
  show StableHlo.after hostOps0 (W0 m ρ c) (Proc.devRef .tc main_arg15) = _
  after_results_simp
theorem w1_arg16 : W1 m ρ c (Proc.devRef .tc main_arg16) = m ((c : Thread nD τ).loc main_arg16) := by
  show StableHlo.after hostOps0 (W0 m ρ c) (Proc.devRef .tc main_arg16) = _
  after_results_simp
theorem w1_arg17 : W1 m ρ c (Proc.devRef .tc main_arg17) = m ((c : Thread nD τ).loc main_arg17) := by
  show StableHlo.after hostOps0 (W0 m ρ c) (Proc.devRef .tc main_arg17) = _
  after_results_simp
theorem w1_arg18 : W1 m ρ c (Proc.devRef .tc main_arg18) = m ((c : Thread nD τ).loc main_arg18) := by
  show StableHlo.after hostOps0 (W0 m ρ c) (Proc.devRef .tc main_arg18) = _
  after_results_simp
theorem w1_arg19 : W1 m ρ c (Proc.devRef .tc main_arg19) = m ((c : Thread nD τ).loc main_arg19) := by
  show StableHlo.after hostOps0 (W0 m ρ c) (Proc.devRef .tc main_arg19) = _
  after_results_simp
theorem w1_arg20 : W1 m ρ c (Proc.devRef .tc main_arg20) = m ((c : Thread nD τ).loc main_arg20) := by
  show StableHlo.after hostOps0 (W0 m ρ c) (Proc.devRef .tc main_arg20) = _
  after_results_simp
theorem w1_arg21 : W1 m ρ c (Proc.devRef .tc main_arg21) = m ((c : Thread nD τ).loc main_arg21) := by
  show StableHlo.after hostOps0 (W0 m ρ c) (Proc.devRef .tc main_arg21) = _
  after_results_simp
theorem w1_arg22 : W1 m ρ c (Proc.devRef .tc main_arg22) = m ((c : Thread nD τ).loc main_arg22) := by
  show StableHlo.after hostOps0 (W0 m ρ c) (Proc.devRef .tc main_arg22) = _
  after_results_simp
theorem w1_arg23 : W1 m ρ c (Proc.devRef .tc main_arg23) = m ((c : Thread nD τ).loc main_arg23) := by
  show StableHlo.after hostOps0 (W0 m ρ c) (Proc.devRef .tc main_arg23) = _
  after_results_simp
theorem w1_arg24 : W1 m ρ c (Proc.devRef .tc main_arg24) = m ((c : Thread nD τ).loc main_arg24) := by
  show StableHlo.after hostOps0 (W0 m ρ c) (Proc.devRef .tc main_arg24) = _
  after_results_simp
theorem w1_arg25 : W1 m ρ c (Proc.devRef .tc main_arg25) = m ((c : Thread nD τ).loc main_arg25) := by
  show StableHlo.after hostOps0 (W0 m ρ c) (Proc.devRef .tc main_arg25) = _
  after_results_simp
theorem w1_arg26 : W1 m ρ c (Proc.devRef .tc main_arg26) = m ((c : Thread nD τ).loc main_arg26) := by
  show StableHlo.after hostOps0 (W0 m ρ c) (Proc.devRef .tc main_arg26) = _
  after_results_simp
theorem w1_arg27 : W1 m ρ c (Proc.devRef .tc main_arg27) = m ((c : Thread nD τ).loc main_arg27) := by
  show StableHlo.after hostOps0 (W0 m ρ c) (Proc.devRef .tc main_arg27) = _
  after_results_simp
theorem w1_arg28 : W1 m ρ c (Proc.devRef .tc main_arg28) = m ((c : Thread nD τ).loc main_arg28) := by
  show StableHlo.after hostOps0 (W0 m ρ c) (Proc.devRef .tc main_arg28) = _
  after_results_simp
theorem w1_arg0 : W1 m ρ c (Proc.devRef .tc main_arg0) = m ((c : Thread nD τ).loc main_arg0) := by
  show StableHlo.after hostOps0 (W0 m ρ c) (Proc.devRef .tc main_arg0) = _
  after_results_simp

/-! ## After the first region -/

theorem w2_src : W2 m ρ c (Proc.devRef .tc main_v1) = val_main_v1 (F := Ideal) (m ((c : Thread nD τ).loc main_arg1)) :=
  (W2_of_ne m ρ c main_v1 (by decide)).trans (w1_src m ρ c)
theorem w2_dst : W2 m ρ c (Proc.devRef .tc main_v3) = val_main_v3 (F := Ideal) (m ((c : Thread nD τ).loc main_arg1)) :=
  (W2_of_ne m ρ c main_v3 (by decide)).trans (w1_dst m ρ c)
theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg11 : W2 m ρ c (Proc.devRef .tc main_arg11) = m ((c : Thread nD τ).loc main_arg11) :=
  (W2_of_ne m ρ c main_arg11 (by decide)).trans (w1_arg11 m ρ c)
theorem w2_arg12 : W2 m ρ c (Proc.devRef .tc main_arg12) = m ((c : Thread nD τ).loc main_arg12) :=
  (W2_of_ne m ρ c main_arg12 (by decide)).trans (w1_arg12 m ρ c)
theorem w2_arg13 : W2 m ρ c (Proc.devRef .tc main_arg13) = m ((c : Thread nD τ).loc main_arg13) :=
  (W2_of_ne m ρ c main_arg13 (by decide)).trans (w1_arg13 m ρ c)
theorem w2_arg14 : W2 m ρ c (Proc.devRef .tc main_arg14) = m ((c : Thread nD τ).loc main_arg14) :=
  (W2_of_ne m ρ c main_arg14 (by decide)).trans (w1_arg14 m ρ c)
theorem w2_arg15 : W2 m ρ c (Proc.devRef .tc main_arg15) = m ((c : Thread nD τ).loc main_arg15) :=
  (W2_of_ne m ρ c main_arg15 (by decide)).trans (w1_arg15 m ρ c)
theorem w2_arg16 : W2 m ρ c (Proc.devRef .tc main_arg16) = m ((c : Thread nD τ).loc main_arg16) :=
  (W2_of_ne m ρ c main_arg16 (by decide)).trans (w1_arg16 m ρ c)
theorem w2_arg17 : W2 m ρ c (Proc.devRef .tc main_arg17) = m ((c : Thread nD τ).loc main_arg17) :=
  (W2_of_ne m ρ c main_arg17 (by decide)).trans (w1_arg17 m ρ c)
theorem w2_arg18 : W2 m ρ c (Proc.devRef .tc main_arg18) = m ((c : Thread nD τ).loc main_arg18) :=
  (W2_of_ne m ρ c main_arg18 (by decide)).trans (w1_arg18 m ρ c)
theorem w2_arg19 : W2 m ρ c (Proc.devRef .tc main_arg19) = m ((c : Thread nD τ).loc main_arg19) :=
  (W2_of_ne m ρ c main_arg19 (by decide)).trans (w1_arg19 m ρ c)
theorem w2_arg20 : W2 m ρ c (Proc.devRef .tc main_arg20) = m ((c : Thread nD τ).loc main_arg20) :=
  (W2_of_ne m ρ c main_arg20 (by decide)).trans (w1_arg20 m ρ c)
theorem w2_arg21 : W2 m ρ c (Proc.devRef .tc main_arg21) = m ((c : Thread nD τ).loc main_arg21) :=
  (W2_of_ne m ρ c main_arg21 (by decide)).trans (w1_arg21 m ρ c)
theorem w2_arg22 : W2 m ρ c (Proc.devRef .tc main_arg22) = m ((c : Thread nD τ).loc main_arg22) :=
  (W2_of_ne m ρ c main_arg22 (by decide)).trans (w1_arg22 m ρ c)
theorem w2_arg23 : W2 m ρ c (Proc.devRef .tc main_arg23) = m ((c : Thread nD τ).loc main_arg23) :=
  (W2_of_ne m ρ c main_arg23 (by decide)).trans (w1_arg23 m ρ c)
theorem w2_arg24 : W2 m ρ c (Proc.devRef .tc main_arg24) = m ((c : Thread nD τ).loc main_arg24) :=
  (W2_of_ne m ρ c main_arg24 (by decide)).trans (w1_arg24 m ρ c)
theorem w2_arg25 : W2 m ρ c (Proc.devRef .tc main_arg25) = m ((c : Thread nD τ).loc main_arg25) :=
  (W2_of_ne m ρ c main_arg25 (by decide)).trans (w1_arg25 m ρ c)
theorem w2_arg26 : W2 m ρ c (Proc.devRef .tc main_arg26) = m ((c : Thread nD τ).loc main_arg26) :=
  (W2_of_ne m ρ c main_arg26 (by decide)).trans (w1_arg26 m ρ c)
theorem w2_arg27 : W2 m ρ c (Proc.devRef .tc main_arg27) = m ((c : Thread nD τ).loc main_arg27) :=
  (W2_of_ne m ρ c main_arg27 (by decide)).trans (w1_arg27 m ρ c)
theorem w2_arg28 : W2 m ρ c (Proc.devRef .tc main_arg28) = m ((c : Thread nD τ).loc main_arg28) :=
  (W2_of_ne m ρ c main_arg28 (by decide)).trans (w1_arg28 m ρ c)

/-! ## After the second stretch -/

theorem w3_src : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_src m ρ c
theorem w3_dst : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_dst m ρ c
theorem w3_arg2 : W3 m ρ c (Proc.devRef .tc main_arg2) = m ((c : Thread nD τ).loc main_arg2) := by
  show StableHlo.after hostOps1 (W2 m ρ c) (Proc.devRef .tc main_arg2) = _
  after_results_simp
  exact w2_arg2 m ρ c
theorem w3_arg3 : W3 m ρ c (Proc.devRef .tc main_arg3) = m ((c : Thread nD τ).loc main_arg3) := by
  show StableHlo.after hostOps1 (W2 m ρ c) (Proc.devRef .tc main_arg3) = _
  after_results_simp
  exact w2_arg3 m ρ c
theorem w3_arg11 : W3 m ρ c (Proc.devRef .tc main_arg11) = m ((c : Thread nD τ).loc main_arg11) := by
  show StableHlo.after hostOps1 (W2 m ρ c) (Proc.devRef .tc main_arg11) = _
  after_results_simp
  exact w2_arg11 m ρ c
theorem w3_arg12 : W3 m ρ c (Proc.devRef .tc main_arg12) = m ((c : Thread nD τ).loc main_arg12) := by
  show StableHlo.after hostOps1 (W2 m ρ c) (Proc.devRef .tc main_arg12) = _
  after_results_simp
  exact w2_arg12 m ρ c
theorem w3_arg13 : W3 m ρ c (Proc.devRef .tc main_arg13) = m ((c : Thread nD τ).loc main_arg13) := by
  show StableHlo.after hostOps1 (W2 m ρ c) (Proc.devRef .tc main_arg13) = _
  after_results_simp
  exact w2_arg13 m ρ c
theorem w3_arg14 : W3 m ρ c (Proc.devRef .tc main_arg14) = m ((c : Thread nD τ).loc main_arg14) := by
  show StableHlo.after hostOps1 (W2 m ρ c) (Proc.devRef .tc main_arg14) = _
  after_results_simp
  exact w2_arg14 m ρ c
theorem w3_arg15 : W3 m ρ c (Proc.devRef .tc main_arg15) = m ((c : Thread nD τ).loc main_arg15) := by
  show StableHlo.after hostOps1 (W2 m ρ c) (Proc.devRef .tc main_arg15) = _
  after_results_simp
  exact w2_arg15 m ρ c
theorem w3_arg16 : W3 m ρ c (Proc.devRef .tc main_arg16) = m ((c : Thread nD τ).loc main_arg16) := by
  show StableHlo.after hostOps1 (W2 m ρ c) (Proc.devRef .tc main_arg16) = _
  after_results_simp
  exact w2_arg16 m ρ c
theorem w3_arg17 : W3 m ρ c (Proc.devRef .tc main_arg17) = m ((c : Thread nD τ).loc main_arg17) := by
  show StableHlo.after hostOps1 (W2 m ρ c) (Proc.devRef .tc main_arg17) = _
  after_results_simp
  exact w2_arg17 m ρ c
theorem w3_arg18 : W3 m ρ c (Proc.devRef .tc main_arg18) = m ((c : Thread nD τ).loc main_arg18) := by
  show StableHlo.after hostOps1 (W2 m ρ c) (Proc.devRef .tc main_arg18) = _
  after_results_simp
  exact w2_arg18 m ρ c
theorem w3_arg19 : W3 m ρ c (Proc.devRef .tc main_arg19) = m ((c : Thread nD τ).loc main_arg19) := by
  show StableHlo.after hostOps1 (W2 m ρ c) (Proc.devRef .tc main_arg19) = _
  after_results_simp
  exact w2_arg19 m ρ c
theorem w3_arg20 : W3 m ρ c (Proc.devRef .tc main_arg20) = m ((c : Thread nD τ).loc main_arg20) := by
  show StableHlo.after hostOps1 (W2 m ρ c) (Proc.devRef .tc main_arg20) = _
  after_results_simp
  exact w2_arg20 m ρ c
theorem w3_arg21 : W3 m ρ c (Proc.devRef .tc main_arg21) = m ((c : Thread nD τ).loc main_arg21) := by
  show StableHlo.after hostOps1 (W2 m ρ c) (Proc.devRef .tc main_arg21) = _
  after_results_simp
  exact w2_arg21 m ρ c
theorem w3_arg22 : W3 m ρ c (Proc.devRef .tc main_arg22) = m ((c : Thread nD τ).loc main_arg22) := by
  show StableHlo.after hostOps1 (W2 m ρ c) (Proc.devRef .tc main_arg22) = _
  after_results_simp
  exact w2_arg22 m ρ c
theorem w3_arg23 : W3 m ρ c (Proc.devRef .tc main_arg23) = m ((c : Thread nD τ).loc main_arg23) := by
  show StableHlo.after hostOps1 (W2 m ρ c) (Proc.devRef .tc main_arg23) = _
  after_results_simp
  exact w2_arg23 m ρ c
theorem w3_arg24 : W3 m ρ c (Proc.devRef .tc main_arg24) = m ((c : Thread nD τ).loc main_arg24) := by
  show StableHlo.after hostOps1 (W2 m ρ c) (Proc.devRef .tc main_arg24) = _
  after_results_simp
  exact w2_arg24 m ρ c
theorem w3_arg25 : W3 m ρ c (Proc.devRef .tc main_arg25) = m ((c : Thread nD τ).loc main_arg25) := by
  show StableHlo.after hostOps1 (W2 m ρ c) (Proc.devRef .tc main_arg25) = _
  after_results_simp
  exact w2_arg25 m ρ c
theorem w3_arg26 : W3 m ρ c (Proc.devRef .tc main_arg26) = m ((c : Thread nD τ).loc main_arg26) := by
  show StableHlo.after hostOps1 (W2 m ρ c) (Proc.devRef .tc main_arg26) = _
  after_results_simp
  exact w2_arg26 m ρ c
theorem w3_arg27 : W3 m ρ c (Proc.devRef .tc main_arg27) = m ((c : Thread nD τ).loc main_arg27) := by
  show StableHlo.after hostOps1 (W2 m ρ c) (Proc.devRef .tc main_arg27) = _
  after_results_simp
  exact w2_arg27 m ρ c
theorem w3_arg28 : W3 m ρ c (Proc.devRef .tc main_arg28) = m ((c : Thread nD τ).loc main_arg28) := by
  show StableHlo.after hostOps1 (W2 m ρ c) (Proc.devRef .tc main_arg28) = _
  after_results_simp
  exact w2_arg28 m ρ c

/-! ## After the second region -/

theorem w4_src : W4 m ρ c (Proc.devRef .tc main_v1) = val_main_v1 (F := Ideal) (m ((c : Thread nD τ).loc main_arg1)) :=
  (W4_of_ne m ρ c main_v1 (by decide)).trans (w3_src m ρ c)
theorem w4_dst : W4 m ρ c (Proc.devRef .tc main_v3) = val_main_v3 (F := Ideal) (m ((c : Thread nD τ).loc main_arg1)) :=
  (W4_of_ne m ρ c main_v3 (by decide)).trans (w3_dst m ρ c)
theorem w4_arg2 : W4 m ρ c (Proc.devRef .tc main_arg2) = m ((c : Thread nD τ).loc main_arg2) :=
  (W4_of_ne m ρ c main_arg2 (by decide)).trans (w3_arg2 m ρ c)
theorem w4_arg3 : W4 m ρ c (Proc.devRef .tc main_arg3) = m ((c : Thread nD τ).loc main_arg3) :=
  (W4_of_ne m ρ c main_arg3 (by decide)).trans (w3_arg3 m ρ c)
theorem w4_arg18 : W4 m ρ c (Proc.devRef .tc main_arg18) = m ((c : Thread nD τ).loc main_arg18) :=
  (W4_of_ne m ρ c main_arg18 (by decide)).trans (w3_arg18 m ρ c)
theorem w4_arg19 : W4 m ρ c (Proc.devRef .tc main_arg19) = m ((c : Thread nD τ).loc main_arg19) :=
  (W4_of_ne m ρ c main_arg19 (by decide)).trans (w3_arg19 m ρ c)
theorem w4_arg20 : W4 m ρ c (Proc.devRef .tc main_arg20) = m ((c : Thread nD τ).loc main_arg20) :=
  (W4_of_ne m ρ c main_arg20 (by decide)).trans (w3_arg20 m ρ c)
theorem w4_arg21 : W4 m ρ c (Proc.devRef .tc main_arg21) = m ((c : Thread nD τ).loc main_arg21) :=
  (W4_of_ne m ρ c main_arg21 (by decide)).trans (w3_arg21 m ρ c)
theorem w4_arg22 : W4 m ρ c (Proc.devRef .tc main_arg22) = m ((c : Thread nD τ).loc main_arg22) :=
  (W4_of_ne m ρ c main_arg22 (by decide)).trans (w3_arg22 m ρ c)
theorem w4_arg23 : W4 m ρ c (Proc.devRef .tc main_arg23) = m ((c : Thread nD τ).loc main_arg23) :=
  (W4_of_ne m ρ c main_arg23 (by decide)).trans (w3_arg23 m ρ c)
theorem w4_arg24 : W4 m ρ c (Proc.devRef .tc main_arg24) = m ((c : Thread nD τ).loc main_arg24) :=
  (W4_of_ne m ρ c main_arg24 (by decide)).trans (w3_arg24 m ρ c)
theorem w4_arg25 : W4 m ρ c (Proc.devRef .tc main_arg25) = m ((c : Thread nD τ).loc main_arg25) :=
  (W4_of_ne m ρ c main_arg25 (by decide)).trans (w3_arg25 m ρ c)
theorem w4_arg26 : W4 m ρ c (Proc.devRef .tc main_arg26) = m ((c : Thread nD τ).loc main_arg26) :=
  (W4_of_ne m ρ c main_arg26 (by decide)).trans (w3_arg26 m ρ c)
theorem w4_arg27 : W4 m ρ c (Proc.devRef .tc main_arg27) = m ((c : Thread nD τ).loc main_arg27) :=
  (W4_of_ne m ρ c main_arg27 (by decide)).trans (w3_arg27 m ρ c)
theorem w4_arg28 : W4 m ρ c (Proc.devRef .tc main_arg28) = m ((c : Thread nD τ).loc main_arg28) :=
  (W4_of_ne m ρ c main_arg28 (by decide)).trans (w3_arg28 m ρ c)

/-! ## After the third stretch -/

theorem w5_arg2 : W5 m ρ c (Proc.devRef .tc main_arg2) = m ((c : Thread nD τ).loc main_arg2) := by
  show StableHlo.after hostOps2 (W4 m ρ c) (Proc.devRef .tc main_arg2) = _
  after_results_simp
  exact w4_arg2 m ρ c
theorem w5_arg3 : W5 m ρ c (Proc.devRef .tc main_arg3) = m ((c : Thread nD τ).loc main_arg3) := by
  show StableHlo.after hostOps2 (W4 m ρ c) (Proc.devRef .tc main_arg3) = _
  after_results_simp
  exact w4_arg3 m ρ c
theorem w5_arg18 : W5 m ρ c (Proc.devRef .tc main_arg18) = m ((c : Thread nD τ).loc main_arg18) := by
  show StableHlo.after hostOps2 (W4 m ρ c) (Proc.devRef .tc main_arg18) = _
  after_results_simp
  exact w4_arg18 m ρ c
theorem w5_arg19 : W5 m ρ c (Proc.devRef .tc main_arg19) = m ((c : Thread nD τ).loc main_arg19) := by
  show StableHlo.after hostOps2 (W4 m ρ c) (Proc.devRef .tc main_arg19) = _
  after_results_simp
  exact w4_arg19 m ρ c
theorem w5_arg20 : W5 m ρ c (Proc.devRef .tc main_arg20) = m ((c : Thread nD τ).loc main_arg20) := by
  show StableHlo.after hostOps2 (W4 m ρ c) (Proc.devRef .tc main_arg20) = _
  after_results_simp
  exact w4_arg20 m ρ c
theorem w5_arg21 : W5 m ρ c (Proc.devRef .tc main_arg21) = m ((c : Thread nD τ).loc main_arg21) := by
  show StableHlo.after hostOps2 (W4 m ρ c) (Proc.devRef .tc main_arg21) = _
  after_results_simp
  exact w4_arg21 m ρ c
theorem w5_arg22 : W5 m ρ c (Proc.devRef .tc main_arg22) = m ((c : Thread nD τ).loc main_arg22) := by
  show StableHlo.after hostOps2 (W4 m ρ c) (Proc.devRef .tc main_arg22) = _
  after_results_simp
  exact w4_arg22 m ρ c
theorem w5_arg23 : W5 m ρ c (Proc.devRef .tc main_arg23) = m ((c : Thread nD τ).loc main_arg23) := by
  show StableHlo.after hostOps2 (W4 m ρ c) (Proc.devRef .tc main_arg23) = _
  after_results_simp
  exact w4_arg23 m ρ c
theorem w5_arg24 : W5 m ρ c (Proc.devRef .tc main_arg24) = m ((c : Thread nD τ).loc main_arg24) := by
  show StableHlo.after hostOps2 (W4 m ρ c) (Proc.devRef .tc main_arg24) = _
  after_results_simp
  exact w4_arg24 m ρ c
theorem w5_arg25 : W5 m ρ c (Proc.devRef .tc main_arg25) = m ((c : Thread nD τ).loc main_arg25) := by
  show StableHlo.after hostOps2 (W4 m ρ c) (Proc.devRef .tc main_arg25) = _
  after_results_simp
  exact w4_arg25 m ρ c
theorem w5_arg26 : W5 m ρ c (Proc.devRef .tc main_arg26) = m ((c : Thread nD τ).loc main_arg26) := by
  show StableHlo.after hostOps2 (W4 m ρ c) (Proc.devRef .tc main_arg26) = _
  after_results_simp
  exact w4_arg26 m ρ c
theorem w5_arg27 : W5 m ρ c (Proc.devRef .tc main_arg27) = m ((c : Thread nD τ).loc main_arg27) := by
  show StableHlo.after hostOps2 (W4 m ρ c) (Proc.devRef .tc main_arg27) = _
  after_results_simp
  exact w4_arg27 m ρ c
theorem w5_arg28 : W5 m ρ c (Proc.devRef .tc main_arg28) = m ((c : Thread nD τ).loc main_arg28) := by
  show StableHlo.after hostOps2 (W4 m ρ c) (Proc.devRef .tc main_arg28) = _
  after_results_simp
  exact w4_arg28 m ρ c

/-! ## After the third region -/

theorem w6_arg2 : W6 m ρ c (Proc.devRef .tc main_arg2) = m ((c : Thread nD τ).loc main_arg2) :=
  (W6_of_ne m ρ c main_arg2 (by decide)).trans (w5_arg2 m ρ c)
theorem w6_arg3 : W6 m ρ c (Proc.devRef .tc main_arg3) = m ((c : Thread nD τ).loc main_arg3) :=
  (W6_of_ne m ρ c main_arg3 (by decide)).trans (w5_arg3 m ρ c)
theorem w6_arg25 : W6 m ρ c (Proc.devRef .tc main_arg25) = m ((c : Thread nD τ).loc main_arg25) :=
  (W6_of_ne m ρ c main_arg25 (by decide)).trans (w5_arg25 m ρ c)
theorem w6_arg26 : W6 m ρ c (Proc.devRef .tc main_arg26) = m ((c : Thread nD τ).loc main_arg26) :=
  (W6_of_ne m ρ c main_arg26 (by decide)).trans (w5_arg26 m ρ c)
theorem w6_arg27 : W6 m ρ c (Proc.devRef .tc main_arg27) = m ((c : Thread nD τ).loc main_arg27) :=
  (W6_of_ne m ρ c main_arg27 (by decide)).trans (w5_arg27 m ρ c)
theorem w6_arg28 : W6 m ρ c (Proc.devRef .tc main_arg28) = m ((c : Thread nD τ).loc main_arg28) :=
  (W6_of_ne m ρ c main_arg28 (by decide)).trans (w5_arg28 m ρ c)

end Cert.KernelIdeal.HostArgs

end
-- ==== Proof.RefValue.lean ====
/-
  The reference program's result, read as the network of `Spec`.

  The reference computes its 128×2 logits through a long chain of array operations. This module reads that chain back
  as mathematics: each of the three layers is the dense transform `denseArr` applied to the neighbour average of the
  previous features and to those features themselves; the per-graph mean with the graph attributes appended feeds the
  two-layer classifier `clfArr`. The irregular parts (the neighbour average along the edge list, the per-graph mean)
  are never opened: they are carried as the two functions `agg` and `pool`, built from the reference's own operations.
  No algebra is needed anywhere, since `Spec` spells each row in the order in which the reference adds and multiplies.
-/
import proofs.«174914_j24137716203811_1_alg».proof.Proof.Gen.ReferenceIdeal.Read
import proofs.«174914_j24137716203811_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.GraphNet Idealize.ShloMosaic Idealize.ShloMosaic.ValueIdx
open Cert.ReferenceIdeal.Gen Idealize.ShloMosaic.TcCoe Idealize.SL.Sem Idealize.ShloMosaic.StableHlo

/-- The neighbour average as one opaque function of (features, edge list): the reference's own first-layer chain. Entry
    `(p, q)` is the sum of feature `q` over the edges arriving at node `p`, divided by the larger of that node's
    in-degree and one. -/
abbrev agg (h : (⟨S100000x64, .f32⟩ : BufTy).Contents (Elt Ideal)) (ei : (⟨S2x1250000, .i32⟩ : BufTy).Contents (Elt Ideal)) : (⟨S100000x64, .f32⟩ : BufTy).Contents (Elt Ideal) := val_main_v22 (F := Ideal) h ei

/-! ### The index maps of the reference's operations, in coordinates

  A product of an `R×K` array by a `K×C` matrix reads, for the output entry `(p, q)` and the summation index `k`, its
  left operand at `(p, k)` and the matrix at `(k, q)`; a vector spread over the rows of an `R×C` array (first made a
  `1×C` row, then repeated) is read at the column `q`, whatever the row. One pair of statements per product and one per
  spread vector, each by inspection of the two coordinates. -/

theorem lidx_v23 (p : Fin 100000) (q : Fin 64) (k : Fin 64) : lidx_main_v23 (ix2 p q) k = ix2 p k :=
  funext fun a => Fin.ext (by match a with | ⟨0, _⟩ => rfl | ⟨1, _⟩ => rfl)
theorem ridx_v23 (p : Fin 100000) (q : Fin 64) (k : Fin 64) : ridx_main_v23 (ix2 p q) k = ix2 k q :=
  funext fun a => Fin.ext (by match a with | ⟨0, _⟩ => rfl | ⟨1, _⟩ => rfl)
theorem lidx_v27 (p : Fin 100000) (q : Fin 64) (k : Fin 64) : lidx_main_v27 (ix2 p q) k = ix2 p k :=
  funext fun a => Fin.ext (by match a with | ⟨0, _⟩ => rfl | ⟨1, _⟩ => rfl)
theorem ridx_v27 (p : Fin 100000) (q : Fin 64) (k : Fin 64) : ridx_main_v27 (ix2 p q) k = ix2 k q :=
  funext fun a => Fin.ext (by match a with | ⟨0, _⟩ => rfl | ⟨1, _⟩ => rfl)
theorem vidx_v25 (p : Fin 100000) (q : Fin 64) : idx_main_v24 (idx_main_v25 (ix2 p q)) = ix1 q :=
  funext fun a => Fin.ext (by match a with | ⟨0, _⟩ => rfl)
theorem vidx_v30 (p : Fin 100000) (q : Fin 64) : idx_main_v29 (idx_main_v30 (ix2 p q)) = ix1 q :=
  funext fun a => Fin.ext (by match a with | ⟨0, _⟩ => rfl)
theorem vidx_v37 (p : Fin 100000) (q : Fin 64) : idx_main_v36 (idx_main_v37 (ix2 p q)) = ix1 q :=
  funext fun a => Fin.ext (by match a with | ⟨0, _⟩ => rfl)
theorem vidx_v40 (p : Fin 100000) (q : Fin 64) : idx_main_v39 (idx_main_v40 (ix2 p q)) = ix1 q :=
  funext fun a => Fin.ext (by match a with | ⟨0, _⟩ => rfl)
theorem lidx_v62 (p : Fin 100000) (q : Fin 64) (k : Fin 64) : lidx_main_v62 (ix2 p q) k = ix2 p k :=
  funext fun a => Fin.ext (by match a with | ⟨0, _⟩ => rfl | ⟨1, _⟩ => rfl)
theorem ridx_v62 (p : Fin 100000) (q : Fin 64) (k : Fin 64) : ridx_main_v62 (ix2 p q) k = ix2 k q :=
  funext fun a => Fin.ext (by match a with | ⟨0, _⟩ => rfl | ⟨1, _⟩ => rfl)
theorem lidx_v66 (p : Fin 100000) (q : Fin 64) (k : Fin 64) : lidx_main_v66 (ix2 p q) k = ix2 p k :=
  funext fun a => Fin.ext (by match a with | ⟨0, _⟩ => rfl | ⟨1, _⟩ => rfl)
theorem ridx_v66 (p : Fin 100000) (q : Fin 64) (k : Fin 64) : ridx_main_v66 (ix2 p q) k = ix2 k q :=
  funext fun a => Fin.ext (by match a with | ⟨0, _⟩ => rfl | ⟨1, _⟩ => rfl)
theorem vidx_v64 (p : Fin 100000) (q : Fin 64) : idx_main_v63 (idx_main_v64 (ix2 p q)) = ix1 q :=
  funext fun a => Fin.ext (by match a with | ⟨0, _⟩ => rfl)
theorem vidx_v69 (p : Fin 100000) (q : Fin 64) : idx_main_v68 (idx_main_v69 (ix2 p q)) = ix1 q :=
  funext fun a => Fin.ext (by match a with | ⟨0, _⟩ => rfl)
theorem vidx_v76 (p : Fin 100000) (q : Fin 64) : idx_main_v75 (idx_main_v76 (ix2 p q)) = ix1 q :=
  funext fun a => Fin.ext (by match a with | ⟨0, _⟩ => rfl)
theorem vidx_v79 (p : Fin 100000) (q : Fin 64) : idx_main_v78 (idx_main_v79 (ix2 p q)) = ix1 q :=
  funext fun a => Fin.ext (by match a with | ⟨0, _⟩ => rfl)
theorem lidx_v101 (p : Fin 100000) (q : Fin 64) (k : Fin 64) : lidx_main_v101 (ix2 p q) k = ix2 p k :=
  funext fun a => Fin.ext (by match a with | ⟨0, _⟩ => rfl | ⟨1, _⟩ => rfl)
theorem ridx_v101 (p : Fin 100000) (q : Fin 64) (k : Fin 64) : ridx_main_v101 (ix2 p q) k = ix2 k q :=
  funext fun a => Fin.ext (by match a with | ⟨0, _⟩ => rfl | ⟨1, _⟩ => rfl)
theorem lidx_v105 (p : Fin 100000) (q : Fin 64) (k : Fin 64) : lidx_main_v105 (ix2 p q) k = ix2 p k :=
  funext fun a => Fin.ext (by match a with | ⟨0, _⟩ => rfl | ⟨1, _⟩ => rfl)
theorem ridx_v105 (p : Fin 100000) (q : Fin 64) (k : Fin 64) : ridx_main_v105 (ix2 p q) k = ix2 k q :=
  funext fun a => Fin.ext (by match a with | ⟨0, _⟩ => rfl | ⟨1, _⟩ => rfl)
theorem vidx_v103 (p : Fin 100000) (q : Fin 64) : idx_main_v102 (idx_main_v103 (ix2 p q)) = ix1 q :=
  funext fun a => Fin.ext (by match a with | ⟨0, _⟩ => rfl)
theorem vidx_v108 (p : Fin 100000) (q : Fin 64) : idx_main_v107 (idx_main_v108 (ix2 p q)) = ix1 q :=
  funext fun a => Fin.ext (by match a with | ⟨0, _⟩ => rfl)
theorem vidx_v115 (p : Fin 100000) (q : Fin 64) : idx_main_v114 (idx_main_v115 (ix2 p q)) = ix1 q :=
  funext fun a => Fin.ext (by match a with | ⟨0, _⟩ => rfl)
theorem vidx_v118 (p : Fin 100000) (q : Fin 64) : idx_main_v117 (idx_main_v118 (ix2 p q)) = ix1 q :=
  funext fun a => Fin.ext (by match a with | ⟨0, _⟩ => rfl)
theorem lidx_v134 (p : Fin 128) (q : Fin 32) (k : Fin 68) : lidx_main_v134 (ix2 p q) k = ix2 p k :=
  funext fun a => Fin.ext (by match a with | ⟨0, _⟩ => rfl | ⟨1, _⟩ => rfl)
theorem ridx_v134 (p : Fin 128) (q : Fin 32) (k : Fin 68) : ridx_main_v134 (ix2 p q) k = ix2 k q :=
  funext fun a => Fin.ext (by match a with | ⟨0, _⟩ => rfl | ⟨1, _⟩ => rfl)
theorem lidx_v139 (p : Fin 128) (q : Fin 2) (k : Fin 32) : lidx_main_v139 (ix2 p q) k = ix2 p k :=
  funext fun a => Fin.ext (by match a with | ⟨0, _⟩ => rfl | ⟨1, _⟩ => rfl)
theorem ridx_v139 (p : Fin 128) (q : Fin 2) (k : Fin 32) : ridx_main_v139 (ix2 p q) k = ix2 k q :=
  funext fun a => Fin.ext (by match a with | ⟨0, _⟩ => rfl | ⟨1, _⟩ => rfl)
theorem vidx_v136 (p : Fin 128) (q : Fin 32) : idx_main_v135 (idx_main_v136 (ix2 p q)) = ix1 q :=
  funext fun a => Fin.ext (by match a with | ⟨0, _⟩ => rfl)
theorem vidx_v141 (p : Fin 128) (q : Fin 2) : idx_main_v140 (idx_main_v141 (ix2 p q)) = ix1 q :=
  funext fun a => Fin.ext (by match a with | ⟨0, _⟩ => rfl)

/-! ### The two row-wise maps of `Spec` at an index given by its coordinates -/

/-- Entry `(p, q)` of the dense transform is `denseRow` of row `p` of the two feature arrays, at column `q`. -/
theorem denseArr_apply (a h : Feat) (Wl Wr : Mat64) (bl g be rm rv : Vec64) (p : Fin 100000) (q : Fin 64) :
    denseArr a h Wl Wr bl g be rm rv (ix2 p q)
      = denseRow (fun k => a (ix2 p k)) (fun k => h (ix2 p k)) (fun k q => Wl (ix2 k q)) (fun k q => Wr (ix2 k q))
          (fun q => bl (ix1 q)) (fun q => g (ix1 q)) (fun q => be (ix1 q)) (fun q => rm (ix1 q)) (fun q => rv (ix1 q)) q := rfl

/-- Entry `(p, q)` of the classifier is `clfRow` of row `p` of the embedding, at column `q`. -/
theorem clfArr_apply (e : Emb) (W1 : (⟨2, ![68, 32]⟩ : Shape).Idx → EReal) (b1 : (⟨1, ![32]⟩ : Shape).Idx → EReal)
    (W2 : (⟨2, ![32, 2]⟩ : Shape).Idx → EReal) (b2 : (⟨1, ![2]⟩ : Shape).Idx → EReal) (p : Fin 128) (q : Fin 2) :
    clfArr e W1 b1 W2 b2 (ix2 p q)
      = clfRow (fun k => e (ix2 p k)) (fun k j => W1 (ix2 k j)) (fun j => b1 (ix1 j)) (fun j q => W2 (ix2 j q))
          (fun q => b2 (ix1 q)) q := rfl

/-- Layer one is the dense transform of the averaged neighbours and the input features: the reference's chain of two
    matrix products, bias, normalisation by the running statistics and rectifier, read entry by entry. -/
theorem dense0 (x0 : (⟨S100000x64, .f32⟩ : BufTy).Contents (Elt Ideal)) (x1 : (⟨S2x1250000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) :
    val_main_v42 (F := Ideal) x0 x1 x4 x5 x6 x7 x8 x9 x10 = denseArr (agg x0 x1) x0 x4 x6 x5 x7 x8 x9 x10 := by
  funext i
  obtain ⟨p, q, rfl⟩ : ∃ (p : Fin 100000) (q : Fin 64), i = ix2 p q := ⟨i 0, i 1, eq_ix2 i⟩
  rw [val_main_v42_apply, val_main_call0_v0_apply, val_main_call0_cst_apply, val_main_v41_apply, val_main_v40_apply,
    val_main_v39_apply, val_main_v38_apply, val_main_v37_apply, val_main_v36_apply, val_main_v35_apply,
    val_main_v34_apply, val_main_v33_apply, val_main_v32_apply, val_main_cst_4_apply, val_main_v31_apply,
    val_main_v30_apply, val_main_v29_apply, val_main_v28_apply, val_main_v27_apply, val_main_v26_apply,
    val_main_v25_apply, val_main_v24_apply, val_main_v23_apply, denseArr_apply]
  unfold denseRow
  simp only [Ideal.addf_def, Ideal.subf_def, Ideal.mulf_def, Ideal.maximumf_def, Ideal.hostUnary_rsqrt_def, Ideal.ofBits_def,
    lidx_v23, ridx_v23, lidx_v27, ridx_v27, vidx_v25, vidx_v30, vidx_v37, vidx_v40]

/-- The second layer averages the neighbours by the same operations as the first, applied to the first layer's output:
    the two chains differ only in the names of their intermediate arrays. -/
theorem avg1 (x0 : (⟨S100000x64, .f32⟩ : BufTy).Contents (Elt Ideal)) (x1 : (⟨S2x1250000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) :
    val_main_v61 (F := Ideal) x0 x1 x4 x5 x6 x7 x8 x9 x10 = agg (val_main_v42 (F := Ideal) x0 x1 x4 x5 x6 x7 x8 x9 x10) x1 := rfl

/-- Layer two is the dense transform of its own averaged neighbours and of the first layer's output, with the second set
    of weights and running statistics. -/
theorem dense1 (x0 : (⟨S100000x64, .f32⟩ : BufTy).Contents (Elt Ideal)) (x1 : (⟨S2x1250000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) :
    val_main_v81 (F := Ideal) x0 x1 x4 x5 x6 x7 x8 x9 x10 x11 x12 x13 x14 x15 x16 x17 = denseArr (val_main_v61 (F := Ideal) x0 x1 x4 x5 x6 x7 x8 x9 x10) (val_main_v42 (F := Ideal) x0 x1 x4 x5 x6 x7 x8 x9 x10) x11 x13 x12 x14 x15 x16 x17 := by
  funext i
  obtain ⟨p, q, rfl⟩ : ∃ (p : Fin 100000) (q : Fin 64), i = ix2 p q := ⟨i 0, i 1, eq_ix2 i⟩
  rw [val_main_v81_apply, val_main_call1_v0_apply, val_main_call1_cst_apply, val_main_v80_apply, val_main_v79_apply,
    val_main_v78_apply, val_main_v77_apply, val_main_v76_apply, val_main_v75_apply, val_main_v74_apply,
    val_main_v73_apply, val_main_v72_apply, val_main_v71_apply, val_main_cst_11_apply, val_main_v70_apply,
    val_main_v69_apply, val_main_v68_apply, val_main_v67_apply, val_main_v66_apply, val_main_v65_apply,
    val_main_v64_apply, val_main_v63_apply, val_main_v62_apply, denseArr_apply]
  unfold denseRow
  simp only [Ideal.addf_def, Ideal.subf_def, Ideal.mulf_def, Ideal.maximumf_def, Ideal.hostUnary_rsqrt_def, Ideal.ofBits_def,
    lidx_v62, ridx_v62, lidx_v66, ridx_v66, vidx_v64, vidx_v69, vidx_v76, vidx_v79]

/-- The third layer averages the neighbours by the same operations again, applied to the second layer's output. -/
theorem avg2 (x0 : (⟨S100000x64, .f32⟩ : BufTy).Contents (Elt Ideal)) (x1 : (⟨S2x1250000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) :
    val_main_v100 (F := Ideal) x0 x1 x4 x5 x6 x7 x8 x9 x10 x11 x12 x13 x14 x15 x16 x17 = agg (val_main_v81 (F := Ideal) x0 x1 x4 x5 x6 x7 x8 x9 x10 x11 x12 x13 x14 x15 x16 x17) x1 := rfl

/-- Layer three is the dense transform of its own averaged neighbours and of the second layer's output, with the third
    set of weights and running statistics. -/
theorem dense2 (x0 : (⟨S100000x64, .f32⟩ : BufTy).Contents (Elt Ideal)) (x1 : (⟨S2x1250000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) :
    val_main_v120 (F := Ideal) x0 x1 x4 x5 x6 x7 x8 x9 x10 x11 x12 x13 x14 x15 x16 x17 x18 x19 x20 x21 x22 x23 x24 = denseArr (val_main_v100 (F := Ideal) x0 x1 x4 x5 x6 x7 x8 x9 x10 x11 x12 x13 x14 x15 x16 x17) (val_main_v81 (F := Ideal) x0 x1 x4 x5 x6 x7 x8 x9 x10 x11 x12 x13 x14 x15 x16 x17) x18 x20 x19 x21 x22 x23 x24 := by
  funext i
  obtain ⟨p, q, rfl⟩ : ∃ (p : Fin 100000) (q : Fin 64), i = ix2 p q := ⟨i 0, i 1, eq_ix2 i⟩
  rw [val_main_v120_apply, val_main_call2_v0_apply, val_main_call2_cst_apply, val_main_v119_apply, val_main_v118_apply,
    val_main_v117_apply, val_main_v116_apply, val_main_v115_apply, val_main_v114_apply, val_main_v113_apply,
    val_main_v112_apply, val_main_v111_apply, val_main_v110_apply, val_main_cst_18_apply, val_main_v109_apply,
    val_main_v108_apply, val_main_v107_apply, val_main_v106_apply, val_main_v105_apply, val_main_v104_apply,
    val_main_v103_apply, val_main_v102_apply, val_main_v101_apply, denseArr_apply]
  unfold denseRow
  simp only [Ideal.addf_def, Ideal.subf_def, Ideal.mulf_def, Ideal.maximumf_def, Ideal.hostUnary_rsqrt_def, Ideal.ofBits_def,
    lidx_v101, ridx_v101, lidx_v105, ridx_v105, vidx_v103, vidx_v108, vidx_v115, vidx_v118]

/-- The per-graph mean and the appended attributes as one opaque function of (node features, node-to-graph map, graph
    attributes): the node rows are added up into their graph's row, each graph's row is divided by the larger of its
    node count and one, and the four attribute columns are appended to the 64 averaged ones. These are the reference's own
    operations, kept unopened. -/
def pool (h : (⟨S100000x64, .f32⟩ : BufTy).Contents (Elt Ideal)) (batch : (⟨S100000, .i32⟩ : BufTy).Contents (Elt Ideal)) (ga : (⟨S128x4, .f32⟩ : BufTy).Contents (Elt Ideal)) : (⟨S128x68, .f32⟩ : BufTy).Contents (Elt Ideal) :=
  concatenate S128x68 1
    [⟨S128x64,
        Host.divf (F := Ideal)
          (Host.scatterAdd (F := Ideal) scatter_S128x64_S100000x1_S100000x64_1_0_0_1
            (broadcastInDim S128x64 ![] bcast_S_S128x64 (constant (F := Ideal) S_ .f32 0x00000000#32))
            (broadcastInDim S100000x1 ![0] bcast_S100000_S100000x1_0 batch) h)
          (broadcastInDim S128x64 ![0, 1] bcast_S128x1_S128x64_0_1
            (broadcastInDim S128x1 ![0] bcast_S128_S128x1_0
              (maximumf
                (Host.scatterAdd (F := Ideal) scatter_S128_S100000x1_S100000_n_0_0_1
                  (broadcastInDim S128 ![] bcast_S_S128 (constant (F := Ideal) S_ .f32 0x00000000#32))
                  (broadcastInDim S100000x1 ![0] bcast_S100000_S100000x1_0 batch)
                  (broadcastInDim S100000 ![] bcast_S_S100000 (constant (F := Ideal) S_ .f32 0x3F800000#32)))
                (broadcastInDim S128 ![] bcast_S_S128 (constant (F := Ideal) S_ .f32 0x3F800000#32)))))⟩,
      ⟨S128x4, ga⟩]
    concatenates_S128x64_S128x4_S128x68_d1

/-- The reference's embedding array is `pool` of the third layer's output, the node-to-graph map and the attributes:
    the same operations, under the names of the reference's intermediate arrays. -/
theorem pool_eq (x0 : (⟨S100000x64, .f32⟩ : BufTy).Contents (Elt Ideal)) (x1 : (⟨S2x1250000, .i32⟩ : BufTy).Contents (Elt Ideal)) (x2 : (⟨S100000, .i32⟩ : BufTy).Contents (Elt Ideal)) (x3 : (⟨S128x4, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) :
    val_main_v133 (F := Ideal) x0 x1 x2 x3 x4 x5 x6 x7 x8 x9 x10 x11 x12 x13 x14 x15 x16 x17 x18 x19 x20 x21 x22 x23 x24 = pool (val_main_v120 (F := Ideal) x0 x1 x4 x5 x6 x7 x8 x9 x10 x11 x12 x13 x14 x15 x16 x17 x18 x19 x20 x21 x22 x23 x24) x2 x3 := rfl

/-- The logits are the classifier of the embedding array: a 68→32 product with bias and rectifier, then a 32→2 product
    with bias, read entry by entry. -/
theorem clf (x0 : (⟨S100000x64, .f32⟩ : BufTy).Contents (Elt Ideal)) (x1 : (⟨S2x1250000, .i32⟩ : BufTy).Contents (Elt Ideal)) (x2 : (⟨S100000, .i32⟩ : BufTy).Contents (Elt Ideal)) (x3 : (⟨S128x4, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S68x32, .f32⟩ : BufTy).Contents (Elt Ideal)) (x26 : (⟨S32, .f32⟩ : BufTy).Contents (Elt Ideal)) (x27 : (⟨S32x2, .f32⟩ : BufTy).Contents (Elt Ideal)) (x28 : (⟨S2, .f32⟩ : BufTy).Contents (Elt Ideal)) :
    val_main_v142 (F := Ideal) x0 x1 x2 x3 x4 x5 x6 x7 x8 x9 x10 x11 x12 x13 x14 x15 x16 x17 x18 x19 x20 x21 x22 x23 x24 x25 x26 x27 x28
      = clfArr (val_main_v133 (F := Ideal) x0 x1 x2 x3 x4 x5 x6 x7 x8 x9 x10 x11 x12 x13 x14 x15 x16 x17 x18 x19 x20 x21 x22 x23 x24) x25 x26 x27 x28 := by
  funext i
  obtain ⟨p, q, rfl⟩ : ∃ (p : Fin 128) (q : Fin 2), i = ix2 p q := ⟨i 0, i 1, eq_ix2 i⟩
  rw [val_main_v142_apply, val_main_v141_apply, val_main_v140_apply, val_main_v139_apply, clfArr_apply]
  unfold clfRow
  simp only [lidx_v139, ridx_v139, vidx_v141, val_main_v138_apply, val_main_call3_v0_apply, val_main_call3_cst_apply,
    val_main_v137_apply, val_main_v136_apply, val_main_v135_apply, val_main_v134_apply, lidx_v134, ridx_v134, vidx_v136,
    Ideal.addf_def, Ideal.mulf_def, Ideal.maximumf_def, Ideal.ofBits_def]

/-- THE REFERENCE'S VALUE: the logits the reference program computes from its 29 arguments are the network `net` over
    the neighbour average `agg` and the pooling `pool`: three dense layers, each on the average of the previous
    features along the edges and on those features, then the per-graph mean with the attributes appended, then the
    classifier. -/
theorem ref_value (x0 : (⟨S100000x64, .f32⟩ : BufTy).Contents (Elt Ideal)) (x1 : (⟨S2x1250000, .i32⟩ : BufTy).Contents (Elt Ideal)) (x2 : (⟨S100000, .i32⟩ : BufTy).Contents (Elt Ideal)) (x3 : (⟨S128x4, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64, .f32⟩ : BufTy).Contents (Elt Ideal)) (x16 : (⟨S64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S68x32, .f32⟩ : BufTy).Contents (Elt Ideal)) (x26 : (⟨S32, .f32⟩ : BufTy).Contents (Elt Ideal)) (x27 : (⟨S32x2, .f32⟩ : BufTy).Contents (Elt Ideal)) (x28 : (⟨S2, .f32⟩ : BufTy).Contents (Elt Ideal)) :
    val_main_v142 (F := Ideal) x0 x1 x2 x3 x4 x5 x6 x7 x8 x9 x10 x11 x12 x13 x14 x15 x16 x17 x18 x19 x20 x21 x22 x23 x24 x25 x26 x27 x28
      = net agg pool x0 x1 x2 x3 x4 x5 x6 x7 x8 x9 x10 x11 x12 x13 x14 x15 x16 x17 x18 x19 x20 x21 x22 x23 x24 x25 x26 x27 x28 := by
  rw [clf, pool_eq, dense2, avg2, dense1, avg1, dense0]
  rfl

end Cert.ReferenceIdeal.RefValue

end
-- ==== Proof.NetValue.lean ====
/-
  The idealized kernel's result as the network of its arguments.

  Read backwards from the result buffer: the classifier region leaves the classifier of the arrays it finds; those are
  the per-graph mean (with the attributes appended) of the third layer's output and the classifier's parameters, two of
  them reshaped to one row; the third dense region leaves the layer's row transform of the arrays IT finds, which are the
  neighbour average of the second layer's output, that output, and the third layer's parameters; and so on down to the
  launch memory. The neighbour average and the per-graph mean are the same host operations in both programs and are
  never opened: each stretch of host operations is read as those functions applied to what the previous boundary held.
-/
import proofs.«174914_j24137716203811_1_alg».proof.Proof.KernelRun
import proofs.«174914_j24137716203811_1_alg».proof.Proof.Dense0
import proofs.«174914_j24137716203811_1_alg».proof.Proof.Dense1
import proofs.«174914_j24137716203811_1_alg».proof.Proof.Dense2
import proofs.«174914_j24137716203811_1_alg».proof.Proof.Clf
import proofs.«174914_j24137716203811_1_alg».proof.Proof.HostArgs
import proofs.«174914_j24137716203811_1_alg».proof.Proof.RefValue
import Idealize.ShloMosaic.Lib.ValueLayout
import Idealize.ShloMosaic.Lib.StableHlo.Run

set_option maxRecDepth 16384

noncomputable section

namespace Cert.KernelIdeal.NetValue

open Cert.KernelIdeal Cert.KernelIdeal.Gen Cert.GraphNet Idealize.ShloMosaic Idealize.ShloMosaic.TcCoe Idealize.SL.Sem
open Idealize.ShloMosaic.StableHlo Idealize.ShloMosaic.ValueIdx
open Cert.ReferenceIdeal.RefValue (agg pool)
open Cert.KernelIdeal.HostArgs

/-- A vector reshaped to one row, and that row read back as a vector, is the vector. -/
theorem rowOf_reshape {n : Nat} (v : (⟨1, ![n]⟩ : Shape).Idx → EReal) (h : (⟨1, ![n]⟩ : Shape).ShapeCasts ⟨2, ![1, n]⟩) :
    rowOf (shapeCast ⟨2, ![1, n]⟩ v h) = v := by
  funext j
  obtain ⟨q, rfl⟩ : ∃ q : Fin n, j = ix1 q := ⟨j 0, eq_ix1 j⟩
  exact shapeCast_a_1a_apply v h 0 q

variable (m : (ℓ : Loc nD τ sig) → Buf (Elt Ideal) ℓ) (ρ : Dev nD → PrngReg) (c : Dev nD)

/-! ## What the first dense region finds, and leaves -/

/-- The first stretch leaves, in the first region's neighbour window, the neighbour average of the input features. -/
theorem s0_agg : V1 m ρ c main_v22 = agg (m ((c : Thread nD τ).loc main_arg0)) (m ((c : Thread nD τ).loc main_arg1)) := by
  show StableHlo.after hostOps0 (W0 m ρ c) (Proc.devRef .tc main_v22) = _
  after_results_simp
  rfl
theorem s0_arg0 : V1 m ρ c main_arg0 = m ((c : Thread nD τ).loc main_arg0) := by
  show StableHlo.after hostOps0 (W0 m ρ c) (Proc.devRef .tc main_arg0) = _
  after_results_simp
  try rfl
theorem s0_arg4 : V1 m ρ c main_arg4 = m ((c : Thread nD τ).loc main_arg4) := by
  show StableHlo.after hostOps0 (W0 m ρ c) (Proc.devRef .tc main_arg4) = _
  after_results_simp
  try rfl
theorem s0_arg6 : V1 m ρ c main_arg6 = m ((c : Thread nD τ).loc main_arg6) := by
  show StableHlo.after hostOps0 (W0 m ρ c) (Proc.devRef .tc main_arg6) = _
  after_results_simp
  try rfl
theorem s0_bl : rowOf (V1 m ρ c main_v23) = m ((c : Thread nD τ).loc main_arg5) := by
  have e : V1 m ρ c main_v23 = shapeCast S1x64 (m ((c : Thread nD τ).loc main_arg5)) shapeCasts_S64_S1x64 := by
    show StableHlo.after hostOps0 (W0 m ρ c) (Proc.devRef .tc main_v23) = _
    after_results_simp
    try rfl
  rw [e]
  exact rowOf_reshape _ _
theorem s0_g : rowOf (V1 m ρ c main_v24) = m ((c : Thread nD τ).loc main_arg7) := by
  have e : V1 m ρ c main_v24 = shapeCast S1x64 (m ((c : Thread nD τ).loc main_arg7)) shapeCasts_S64_S1x64 := by
    show StableHlo.after hostOps0 (W0 m ρ c) (Proc.devRef .tc main_v24) = _
    after_results_simp
    try rfl
  rw [e]
  exact rowOf_reshape _ _
theorem s0_be : rowOf (V1 m ρ c main_v25) = m ((c : Thread nD τ).loc main_arg8) := by
  have e : V1 m ρ c main_v25 = shapeCast S1x64 (m ((c : Thread nD τ).loc main_arg8)) shapeCasts_S64_S1x64 := by
    show StableHlo.after hostOps0 (W0 m ρ c) (Proc.devRef .tc main_v25) = _
    after_results_simp
    try rfl
  rw [e]
  exact rowOf_reshape _ _
theorem s0_rm : rowOf (V1 m ρ c main_v26) = m ((c : Thread nD τ).loc main_arg9) := by
  have e : V1 m ρ c main_v26 = shapeCast S1x64 (m ((c : Thread nD τ).loc main_arg9)) shapeCasts_S64_S1x64 := by
    show StableHlo.after hostOps0 (W0 m ρ c) (Proc.devRef .tc main_v26) = _
    after_results_simp
    try rfl
  rw [e]
  exact rowOf_reshape _ _
theorem s0_rv : rowOf (V1 m ρ c main_v27) = m ((c : Thread nD τ).loc main_arg10) := by
  have e : V1 m ρ c main_v27 = shapeCast S1x64 (m ((c : Thread nD τ).loc main_arg10)) shapeCasts_S64_S1x64 := by
    show StableHlo.after hostOps0 (W0 m ρ c) (Proc.devRef .tc main_v27) = _
    after_results_simp
    try rfl
  rw [e]
  exact rowOf_reshape _ _

/-- The first layer's output, as the first region leaves it. -/
def h1 : Feat := denseArr (agg (m ((c : Thread nD τ).loc main_arg0)) (m ((c : Thread nD τ).loc main_arg1))) (m ((c : Thread nD τ).loc main_arg0)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg10))

theorem w2_h1 : W2 m ρ c (Proc.devRef .tc main_v28) = h1 m c := by
  refine (W2_arr m ρ c 9).trans ?_
  rw [DenseValue0.final (V1 m ρ) c]
  unfold DenseValue0.layerOut h1
  rw [s0_agg, s0_arg0, s0_arg4, s0_arg6, s0_bl, s0_g, s0_be, s0_rm, s0_rv]

/-! ## The second dense region -/

/-- The second stretch leaves the neighbour average of the first layer's output. -/
theorem s1_agg : V3 m ρ c main_v47 = agg (h1 m c) (m ((c : Thread nD τ).loc main_arg1)) := by
  show StableHlo.after hostOps1 (W2 m ρ c) (Proc.devRef .tc main_v47) = _
  after_results_simp
  rw [w2_src m ρ c, w2_dst m ρ c, w2_h1 m ρ c]
  rfl
theorem s1_h : V3 m ρ c main_v28 = h1 m c := by
  show StableHlo.after hostOps1 (W2 m ρ c) (Proc.devRef .tc main_v28) = _
  after_results_simp
  exact w2_h1 m ρ c
theorem s1_arg11 : V3 m ρ c main_arg11 = m ((c : Thread nD τ).loc main_arg11) := by
  show StableHlo.after hostOps1 (W2 m ρ c) (Proc.devRef .tc main_arg11) = _
  after_results_simp
  exact w2_arg11 m ρ c
theorem s1_arg13 : V3 m ρ c main_arg13 = m ((c : Thread nD τ).loc main_arg13) := by
  show StableHlo.after hostOps1 (W2 m ρ c) (Proc.devRef .tc main_arg13) = _
  after_results_simp
  exact w2_arg13 m ρ c
theorem s1_bl : rowOf (V3 m ρ c main_v48) = m ((c : Thread nD τ).loc main_arg12) := by
  have e : V3 m ρ c main_v48 = shapeCast S1x64 (m ((c : Thread nD τ).loc main_arg12)) shapeCasts_S64_S1x64 := by
    show StableHlo.after hostOps1 (W2 m ρ c) (Proc.devRef .tc main_v48) = _
    after_results_simp
    rw [w2_arg12 m ρ c]
    try rfl
  rw [e]
  exact rowOf_reshape _ _
theorem s1_g : rowOf (V3 m ρ c main_v49) = m ((c : Thread nD τ).loc main_arg14) := by
  have e : V3 m ρ c main_v49 = shapeCast S1x64 (m ((c : Thread nD τ).loc main_arg14)) shapeCasts_S64_S1x64 := by
    show StableHlo.after hostOps1 (W2 m ρ c) (Proc.devRef .tc main_v49) = _
    after_results_simp
    rw [w2_arg14 m ρ c]
    try rfl
  rw [e]
  exact rowOf_reshape _ _
theorem s1_be : rowOf (V3 m ρ c main_v50) = m ((c : Thread nD τ).loc main_arg15) := by
  have e : V3 m ρ c main_v50 = shapeCast S1x64 (m ((c : Thread nD τ).loc main_arg15)) shapeCasts_S64_S1x64 := by
    show StableHlo.after hostOps1 (W2 m ρ c) (Proc.devRef .tc main_v50) = _
    after_results_simp
    rw [w2_arg15 m ρ c]
    try rfl
  rw [e]
  exact rowOf_reshape _ _
theorem s1_rm : rowOf (V3 m ρ c main_v51) = m ((c : Thread nD τ).loc main_arg16) := by
  have e : V3 m ρ c main_v51 = shapeCast S1x64 (m ((c : Thread nD τ).loc main_arg16)) shapeCasts_S64_S1x64 := by
    show StableHlo.after hostOps1 (W2 m ρ c) (Proc.devRef .tc main_v51) = _
    after_results_simp
    rw [w2_arg16 m ρ c]
    try rfl
  rw [e]
  exact rowOf_reshape _ _
theorem s1_rv : rowOf (V3 m ρ c main_v52) = m ((c : Thread nD τ).loc main_arg17) := by
  have e : V3 m ρ c main_v52 = shapeCast S1x64 (m ((c : Thread nD τ).loc main_arg17)) shapeCasts_S64_S1x64 := by
    show StableHlo.after hostOps1 (W2 m ρ c) (Proc.devRef .tc main_v52) = _
    after_results_simp
    rw [w2_arg17 m ρ c]
    try rfl
  rw [e]
  exact rowOf_reshape _ _

/-- The second layer's output. -/
def h2 : Feat := denseArr (agg (h1 m c) (m ((c : Thread nD τ).loc main_arg1))) (h1 m c) (m ((c : Thread nD τ).loc main_arg11)) (m ((c : Thread nD τ).loc main_arg13)) (m ((c : Thread nD τ).loc main_arg12)) (m ((c : Thread nD τ).loc main_arg14)) (m ((c : Thread nD τ).loc main_arg15)) (m ((c : Thread nD τ).loc main_arg16)) (m ((c : Thread nD τ).loc main_arg17))

theorem w4_h2 : W4 m ρ c (Proc.devRef .tc main_v53) = h2 m c := by
  refine (W4_arr m ρ c 9).trans ?_
  rw [DenseValue1.final (V3 m ρ) c]
  unfold DenseValue1.layerOut h2
  rw [s1_agg, s1_h, s1_arg11, s1_arg13, s1_bl, s1_g, s1_be, s1_rm, s1_rv]

/-! ## The third dense region -/

theorem s2_agg : V5 m ρ c main_v72 = agg (h2 m c) (m ((c : Thread nD τ).loc main_arg1)) := by
  show StableHlo.after hostOps2 (W4 m ρ c) (Proc.devRef .tc main_v72) = _
  after_results_simp
  rw [w4_src m ρ c, w4_dst m ρ c, w4_h2 m ρ c]
  rfl
theorem s2_h : V5 m ρ c main_v53 = h2 m c := by
  show StableHlo.after hostOps2 (W4 m ρ c) (Proc.devRef .tc main_v53) = _
  after_results_simp
  exact w4_h2 m ρ c
theorem s2_arg18 : V5 m ρ c main_arg18 = m ((c : Thread nD τ).loc main_arg18) := by
  show StableHlo.after hostOps2 (W4 m ρ c) (Proc.devRef .tc main_arg18) = _
  after_results_simp
  exact w4_arg18 m ρ c
theorem s2_arg20 : V5 m ρ c main_arg20 = m ((c : Thread nD τ).loc main_arg20) := by
  show StableHlo.after hostOps2 (W4 m ρ c) (Proc.devRef .tc main_arg20) = _
  after_results_simp
  exact w4_arg20 m ρ c
theorem s2_bl : rowOf (V5 m ρ c main_v73) = m ((c : Thread nD τ).loc main_arg19) := by
  have e : V5 m ρ c main_v73 = shapeCast S1x64 (m ((c : Thread nD τ).loc main_arg19)) shapeCasts_S64_S1x64 := by
    show StableHlo.after hostOps2 (W4 m ρ c) (Proc.devRef .tc main_v73) = _
    after_results_simp
    rw [w4_arg19 m ρ c]
    try rfl
  rw [e]
  exact rowOf_reshape _ _
theorem s2_g : rowOf (V5 m ρ c main_v74) = m ((c : Thread nD τ).loc main_arg21) := by
  have e : V5 m ρ c main_v74 = shapeCast S1x64 (m ((c : Thread nD τ).loc main_arg21)) shapeCasts_S64_S1x64 := by
    show StableHlo.after hostOps2 (W4 m ρ c) (Proc.devRef .tc main_v74) = _
    after_results_simp
    rw [w4_arg21 m ρ c]
    try rfl
  rw [e]
  exact rowOf_reshape _ _
theorem s2_be : rowOf (V5 m ρ c main_v75) = m ((c : Thread nD τ).loc main_arg22) := by
  have e : V5 m ρ c main_v75 = shapeCast S1x64 (m ((c : Thread nD τ).loc main_arg22)) shapeCasts_S64_S1x64 := by
    show StableHlo.after hostOps2 (W4 m ρ c) (Proc.devRef .tc main_v75) = _
    after_results_simp
    rw [w4_arg22 m ρ c]
    try rfl
  rw [e]
  exact rowOf_reshape _ _
theorem s2_rm : rowOf (V5 m ρ c main_v76) = m ((c : Thread nD τ).loc main_arg23) := by
  have e : V5 m ρ c main_v76 = shapeCast S1x64 (m ((c : Thread nD τ).loc main_arg23)) shapeCasts_S64_S1x64 := by
    show StableHlo.after hostOps2 (W4 m ρ c) (Proc.devRef .tc main_v76) = _
    after_results_simp
    rw [w4_arg23 m ρ c]
    try rfl
  rw [e]
  exact rowOf_reshape _ _
theorem s2_rv : rowOf (V5 m ρ c main_v77) = m ((c : Thread nD τ).loc main_arg24) := by
  have e : V5 m ρ c main_v77 = shapeCast S1x64 (m ((c : Thread nD τ).loc main_arg24)) shapeCasts_S64_S1x64 := by
    show StableHlo.after hostOps2 (W4 m ρ c) (Proc.devRef .tc main_v77) = _
    after_results_simp
    rw [w4_arg24 m ρ c]
    try rfl
  rw [e]
  exact rowOf_reshape _ _

/-- The third layer's output. -/
def h3 : Feat := denseArr (agg (h2 m c) (m ((c : Thread nD τ).loc main_arg1))) (h2 m c) (m ((c : Thread nD τ).loc main_arg18)) (m ((c : Thread nD τ).loc main_arg20)) (m ((c : Thread nD τ).loc main_arg19)) (m ((c : Thread nD τ).loc main_arg21)) (m ((c : Thread nD τ).loc main_arg22)) (m ((c : Thread nD τ).loc main_arg23)) (m ((c : Thread nD τ).loc main_arg24))

theorem w6_h3 : W6 m ρ c (Proc.devRef .tc main_v78) = h3 m c := by
  refine (W6_arr m ρ c 9).trans ?_
  rw [DenseValue2.final (V5 m ρ) c]
  unfold DenseValue2.layerOut h3
  rw [s2_agg, s2_h, s2_arg18, s2_arg20, s2_bl, s2_g, s2_be, s2_rm, s2_rv]

/-! ## The classifier region -/

/-- The last stretch leaves the per-graph mean of the third layer's output with the graph attributes appended. -/
theorem s3_pool : V7 m ρ c main_v91 = pool (h3 m c) (m ((c : Thread nD τ).loc main_arg2)) (m ((c : Thread nD τ).loc main_arg3)) := by
  show StableHlo.after hostOps3 (W6 m ρ c) (Proc.devRef .tc main_v91) = _
  after_results
  rw [w6_arg2 m ρ c, w6_arg3 m ρ c, w6_h3 m ρ c]
  rfl
theorem s3_arg25 : V7 m ρ c main_arg25 = m ((c : Thread nD τ).loc main_arg25) := by
  show StableHlo.after hostOps3 (W6 m ρ c) (Proc.devRef .tc main_arg25) = _
  after_results_simp
  exact w6_arg25 m ρ c
theorem s3_arg27 : V7 m ρ c main_arg27 = m ((c : Thread nD τ).loc main_arg27) := by
  show StableHlo.after hostOps3 (W6 m ρ c) (Proc.devRef .tc main_arg27) = _
  after_results_simp
  exact w6_arg27 m ρ c
theorem s3_b1 : rowOf (V7 m ρ c main_v92) = m ((c : Thread nD τ).loc main_arg26) := by
  have e : V7 m ρ c main_v92 = shapeCast S1x32 (m ((c : Thread nD τ).loc main_arg26)) shapeCasts_S32_S1x32 := by
    show StableHlo.after hostOps3 (W6 m ρ c) (Proc.devRef .tc main_v92) = _
    after_results_simp
    rw [w6_arg26 m ρ c]
    try rfl
  rw [e]
  exact rowOf_reshape _ _
theorem s3_b2 : rowOf (V7 m ρ c main_v93) = m ((c : Thread nD τ).loc main_arg28) := by
  have e : V7 m ρ c main_v93 = shapeCast S1x2 (m ((c : Thread nD τ).loc main_arg28)) shapeCasts_S2_S1x2 := by
    show StableHlo.after hostOps3 (W6 m ρ c) (Proc.devRef .tc main_v93) = _
    after_results_simp
    rw [w6_arg28 m ρ c]
    try rfl
  rw [e]
  exact rowOf_reshape _ _

/-- THE RESULT BUFFER at the last boundary is the network of the launch arguments. -/
theorem result_eq : W8 m ρ c (Proc.devRef .tc main_v94)
    = net agg pool (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  refine (W8_arr m ρ c 5).trans ?_
  rw [ClfValue.final (V7 m ρ) c]
  unfold ClfValue.logitsOut
  rw [s3_pool, s3_arg25, s3_arg27, s3_b1, s3_b2]
  rfl

/-- THE IDEALIZED KERNEL'S RUN: every weakly fair execution terminates, nothing faulting, with the result array at the
    network of the launch arguments and the arguments unchanged. -/
theorem run : θ_run defs (onTc (τ := τ) (main (F := Ideal))) ⟨m, fun _ => 0, ρ⟩ (fun r => ∀ c : Dev nD,
      r.2.mem ((c.tc : Thread nD τ).loc main_v94)
        = net agg pool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨(RunValue.result_of_buffers m ρ r h c).trans (result_eq m ρ c),
      RunValue.args_of_buffers m ρ r h c⟩)
    (RunValue.run_buffers m ρ)

end Cert.KernelIdeal.NetValue

end
-- ==== Proof.lean ====
/-
  The certificate of a three-layer graph network with a graph-level classifier, kernel against reference.

  Both programs average each node's in-neighbours along the edge list (a gather, a scatter-add and a division by the
  in-degree), transform every node's row by two 64×64 matrix products, a bias, a batch normalisation by running
  statistics and a rectifier, three times over; then average the nodes of each graph, append the graph's attributes, and
  classify by a two-layer perceptron. The kernel computes each dense transform in a pipelined region over blocks of
  10000 node rows and the classifier in a region of one block; the reference computes everything by whole-array
  operations. On the extended reals the two are ONE function of the 29 arguments (`Cert.GraphNet.net`, Proof/Spec.lean):

  * the irregular neighbour average and per-graph mean are the same host operations in both programs, carried as two
    opaque functions and never opened;
  * a region's output array is the layer's row transform of the arrays it finds, whatever they are: what a grid point
    writes back is its block of that one function, and the blocks cover the array (Proof/Dense0–2.lean, Proof/Clf.lean,
    over the body read at an entry in Proof/DensePay.lean, Proof/ClfPay.lean);
  * the kernel adds the second matrix product before the bias and the reference after it, and addition of extended reals
    is commutative and associative, so no input needs to be finite for the two to agree;
  * narrowing a matrix product's operands to a shorter float format is the identity on extended reals, a product into a
    zero accumulator is the plain sum, and the reciprocal square root is one function in both programs.

  The kernel's run with its result named is Proof/KernelRun.lean and Proof/NetValue.lean (the buffers at each segment
  boundary read back to the launch memory, Proof/HostArgs.lean); the reference's is the generated run read stage by
  stage (Proof/RefValue.lean). The three frames are the generated ones; the ideal pass rewrote nothing, so the
  kernel's idealization is preserved trivially.
-/
import proofs.«174914_j24137716203811_1_alg».proof.Defs
import proofs.«174914_j24137716203811_1_alg».proof.Proof.Gen.Kernel
import proofs.«174914_j24137716203811_1_alg».proof.Proof.Gen.Kernel.Skeleton
import proofs.«174914_j24137716203811_1_alg».proof.Proof.Gen.Kernel.Launch
import proofs.«174914_j24137716203811_1_alg».proof.Proof.Gen.Kernel.Points
import proofs.«174914_j24137716203811_1_alg».proof.Proof.Gen.Kernel.Frame
import proofs.«174914_j24137716203811_1_alg».proof.Proof.Gen.KernelIdeal
import proofs.«174914_j24137716203811_1_alg».proof.Proof.Gen.KernelIdeal.Skeleton
import proofs.«174914_j24137716203811_1_alg».proof.Proof.Gen.KernelIdeal.Launch
import proofs.«174914_j24137716203811_1_alg».proof.Proof.Gen.KernelIdeal.Points
import proofs.«174914_j24137716203811_1_alg».proof.Proof.Gen.KernelIdeal.Frame
import proofs.«174914_j24137716203811_1_alg».proof.Proof.Gen.ReferenceIdeal
import proofs.«174914_j24137716203811_1_alg».proof.Proof.Gen.ReferenceIdeal.Run
import proofs.«174914_j24137716203811_1_alg».proof.Proof.Gen.ReferenceIdeal.Read
import proofs.«174914_j24137716203811_1_alg».proof.Proof.Gen.Pre_finite_inputs
import proofs.«174914_j24137716203811_1_alg».proof.Proof.NetValue
import proofs.«174914_j24137716203811_1_alg».proof.Proof.RefValue
import Idealize.ShloMosaic.Adequacy
import Idealize.ShloMosaic.Init

noncomputable section

namespace Cert.Proof

open Idealize.ShloMosaic Idealize.SL.Sem

/-- The word-level kernel runs, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel: there is nothing to preserve. -/
theorem preserves : Cert.preserves_Kernel_KernelIdeal := trivial

/-- From memories that agree on the 29 arguments both idealized programs end with the logits array at the one network
    function of those arguments: the kernel by its regions' blocks (`NetValue.run`), the reference by its stages
    (`RefValue.ref_value`). -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28⟩ := hagree c
  rw [Cert.ReferenceIdeal.Read.val_main_v142_eq, Cert.ReferenceIdeal.RefValue.ref_value,
    a0, a1, a2, a3, a4, a5, a6, a7, a8, a9, a10, a11, a12, a13, a14, a15, a16, a17, a18, a19, a20, a21, a22, a23, a24, a25, a26, a27, a28]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
